-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x256 : Shape := ⟨2, ![2048, 256]⟩
abbrev S256x8192 : Shape := ⟨2, ![256, 8192]⟩
abbrev S8192 : Shape := ⟨1, ![8192]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S256x8192 : S_.BroadcastsInDim S256x8192 (![] : Fin 0 → Fin S256x8192.rank)
  reducesTo_S256x8192_S_d0_1 : S256x8192.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  main_v18

def fn {F : FTy → Type} [FloatOps F] (main_arg0 : FVec F S4x4096x2048 .f32) (main_arg1 : FVec F S2048x256 .f32) (main_arg2 : FVec F S256x8192 .f32) (main_arg3 : FVec F S8192 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S256x8192 .f32 := Host.absf main_arg2
  let main_cst_2 : FVec F S_ .f32 := constant S_ .f32 0x7F800000#32
  let main_v10 : FVec F S256x8192 .f32 := broadcastInDim S256x8192 ![] bcast_S_S256x8192 main_cst_2
  let main_v11 : IVec S256x8192 1 := cmpf .olt main_v9 main_v10
  let main_c_3 : IVec S_ 1 := constantI S_ 1 1#1
  let main_v12 : IVec S_ 1 := (fun x v => Host.reduce IntOp.andi x v reducesTo_S256x8192_S_d0_1 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_v13 main_v16
-- ==== Kernel.lean ====
abbrev S4x4096x2048 : Shape := ⟨3, ![4, 4096, 2048]⟩
abbrev S2048x256 : Shape := ⟨2, ![2048, 256]⟩
abbrev S256x8192 : Shape := ⟨2, ![256, 8192]⟩
abbrev S8192 : Shape := ⟨1, ![8192]⟩
abbrev S256x2048x4 : Shape := ⟨3, ![256, 2048, 4]⟩
abbrev S256x4x2048 : Shape := ⟨3, ![256, 4, 2048]⟩
abbrev S2048x4 : Shape := ⟨2, ![2048, 4]⟩
abbrev S4x2048 : Shape := ⟨2, ![4, 2048]⟩
abbrev S1x256x2048 : Shape := ⟨3, ![1, 256, 2048]⟩
abbrev S1x8x2048 : Shape := ⟨3, ![1, 8, 2048]⟩
abbrev S264x2048 : Shape := ⟨2, ![264, 2048]⟩
abbrev S256x2048 : Shape := ⟨2, ![256, 2048]⟩
abbrev S256x256 : Shape := ⟨2, ![256, 256]⟩
abbrev S1x8192 : Shape := ⟨2, ![1, 8192]⟩
abbrev S8x2048 : Shape := ⟨2, ![8, 2048]⟩

abbrev nBuf : Space → Nat
  | .hbm => 13
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S2048x256, .f32⟩
  | .hbm, ⟨2, _⟩ => ⟨S256x8192, .f32⟩
  | .hbm, ⟨3, _⟩ => ⟨S8192, .f32⟩
  | .hbm, ⟨4, _⟩ => ⟨S256x2048x4, .f32⟩
  | .hbm, ⟨5, _⟩ => ⟨S256x4x2048, .f32⟩
  | .hbm, ⟨6, _⟩ => ⟨S256x8192, .f32⟩
  | .hbm, ⟨7, _⟩ => ⟨S2048x4, .f32⟩
  | .hbm, ⟨8, _⟩ => ⟨S4x2048, .f32⟩
  | .hbm, ⟨9, _⟩ => ⟨S8192, .f32⟩
  | .hbm, ⟨10, _⟩ => ⟨S2048x256, .bf16⟩
  | .hbm, ⟨11, _⟩ => ⟨S256x8192, .bf16⟩
  | .hbm, ⟨12, _⟩ => ⟨S4x4096x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x8x2048, .f32⟩
  | .local _ .vmem, ⟨3, _⟩ => ⟨S1x8x2048, .f32⟩
  | .local _ .vmem, ⟨4, _⟩ => ⟨S2048x256, .bf16⟩
  | .local _ .vmem, ⟨5, _⟩ => ⟨S256x8192, .bf16⟩
  | .local _ .vmem, ⟨6, _⟩ => ⟨S8192, .f32⟩
  | .local _ .vmem, ⟨7, _⟩ => ⟨S1x256x2048, .f32⟩
  | .local _ .vmem, ⟨8, _⟩ => ⟨S1x256x2048, .f32⟩
  | .local _ .vmem, ⟨9, _⟩ => ⟨S264x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S256x8192_S256x2048x4 : S256x8192.ShapeCasts S256x2048x4
  transposes_S256x2048x4_S256x4x2048_0_2_1 : S256x2048x4.Transposes [0, 2, 1] S256x4x2048
  shapeCasts_S256x4x2048_S256x8192 : S256x4x2048.ShapeCasts S256x8192
  shapeCasts_S8192_S2048x4 : S8192.ShapeCasts S2048x4
  transposes_S2048x4_S4x2048_1_0 : S2048x4.Transposes [1, 0] S4x2048
  shapeCasts_S4x2048_S8192 : S4x2048.ShapeCasts S8192
  bitsLt_bf16_f32 : FTy.bits .bf16 < FTy.bits .f32
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  inb_S8192_S8192_0 : ∀ a, (![0] : Fin 1 → Nat) a + S8192.size a ≤ S8192.size a
  h_S8192 : 0 < S8192.numel
  shapeCasts_S8192_S8192 : S8192.ShapeCasts S8192
  shapeCasts_S8192_S1x8192 : S8192.ShapeCasts S1x8192
  broadcasts_S1x8192_S256x8192 : S1x8192.Broadcasts S256x8192
  inb_S264x2048_S256x2048_8_0 : ∀ a, (![8, 0] : Fin 2 → Nat) a + S256x2048.size a ≤ S264x2048.size a
  h_S256x2048 : 0 < S256x2048.numel
  shapeCasts_S256x2048_S256x2048 : S256x2048.ShapeCasts S256x2048
  inb_S264x2048_S8x2048_0_0 : ∀ a, (![0, 0] : Fin 2 → Nat) a + S8x2048.size a ≤ S264x2048.size a
  h_S8x2048 : 0 < S8x2048.numel
  shapeCasts_S8x2048_S8x2048 : S8x2048.ShapeCasts S8x2048
  inb_S1x8x2048_S1x8x2048_0_0_0 : ∀ a, (![0, 0, 0] : Fin 3 → Nat) a + S1x8x2048.size a ≤ S1x8x2048.size a
  h_S1x8x2048 : 0 < S1x8x2048.numel
  shapeCasts_S1x8x2048_S8x2048 : S1x8x2048.ShapeCasts S8x2048
  slices_S256x8192_o0_0_S256x2048 : S256x8192.Slices ![0, 0] S256x2048
  inb_S264x2048_S256x2048_5_0 : ∀ a, (![5, 0] : Fin 2 → Nat) a + S256x2048.size a ≤ S264x2048.size a
  slices_S256x8192_o0_2048_S256x2048 : S256x8192.Slices ![0, 2048] S256x2048
  inb_S264x2048_S256x2048_6_0 : ∀ a, (![6, 0] : Fin 2 → Nat) a + S256x2048.size a ≤ S264x2048.size a
  slices_S256x8192_o0_4096_S256x2048 : S256x8192.Slices ![0, 4096] S256x2048
  inb_S264x2048_S256x2048_7_0 : ∀ a, (![7, 0] : Fin 2 → Nat) a + S256x2048.size a ≤ S264x2048.size a
  slices_S256x8192_o0_6144_S256x2048 : S256x8192.Slices ![0, 6144] S256x2048
  shapeCasts_S256x2048_S1x256x2048 : S256x2048.ShapeCasts S1x256x2048
  dot_S256x2048_S2048x256_S256x256_1_0_0_1_n_n_wf : DotDims.WF S256x2048 S2048x256 S256x256 [1] [0] [0] [1] [] []
  dot_S256x256_S256x8192_S256x8192_1_0_0_1_n_n_wf : DotDims.WF S256x256 S256x8192 S256x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S4x4096x2048.size a
  hwx0_0 : ∀ i : grid0.Coords, EltTy.bits .f32 = 32 ∨ (Rect.block (s := S4x4096x2048) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x2048.size a ≤ S4x4096x2048.size a
  hwx0_1 : ∀ i : grid0.Coords, EltTy.bits .f32 = 32 ∨ (Rect.block (s := S4x4096x2048) S1x8x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S2048x256.size a
  hwx0_2 : ∀ i : grid0.Coords, EltTy.bits .bf16 = 32 ∨ (Rect.block (s := S2048x256) S2048x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x8192.size a ≤ S256x8192.size a
  hwx0_3 : ∀ i : grid0.Coords, EltTy.bits .bf16 = 32 ∨ (Rect.block (s := S256x8192) S256x8192.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8192.size a ≤ S8192.size a
  hwx0_4 : ∀ i : grid0.Coords, EltTy.bits .f32 = 32 ∨ (Rect.block (s := S8192) S8192.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x2048.size a ≤ S4x4096x2048.size a
  hwx0_5 : ∀ i : grid0.Coords, EltTy.bits .f32 = 32 ∨ (Rect.block (s := S4x4096x2048) S1x256x2048.size (cc0_transform_5 i) (hinb0_5 i)).WholeWords (EltTy.packing .f32)

variable [Facts₀]

def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf
def dot_S256x256_S256x8192_S256x8192_1_0_0_1_n_n : DotDims S256x256 S256x8192 S256x8192 where
  lhsContracting := [1]
  rhsContracting := [0]
  lhsNonContracting := [0]
  rhsNonContracting := [1]
  lhsBatch := []
  rhsBatch := []
  wf := dot_S256x256_S256x8192_S256x8192_1_0_0_1_n_n_wf

abbrev win0_0 : Pipeline.Window sig grid0 :=
  Pipeline.Window.ofSpec (Memref.whole main_arg0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x8x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v6) S2048x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v7) S256x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v5) S8192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048x256 : Shape := ⟨2, ![2048, 256]⟩
abbrev S256x8192 : Shape := ⟨2, ![256, 8192]⟩
abbrev S8192 : Shape := ⟨1, ![8192]⟩
abbrev S4x4096x256 : Shape := ⟨3, ![4, 4096, 256]⟩
abbrev S_ : Shape := ⟨0, ![]⟩
abbrev S4x4096x8192 : Shape := ⟨3, ![4, 4096, 8192]⟩
abbrev S1x1x8192 : Shape := ⟨3, ![1, 1, 8192]⟩
abbrev S4x4096x2048x4 : Shape := ⟨4, ![4, 4096, 2048, 4]⟩
abbrev S4x4099x2048 : Shape := ⟨3, ![4, 4099, 2048]⟩
abbrev S4x4096x2048x1 : Shape := ⟨4, ![4, 4096, 2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x256, .f32⟩
  | .hbm, ⟨2, _⟩ => ⟨S256x8192, .f32⟩
  | .hbm, ⟨3, _⟩ => ⟨S8192, .f32⟩
  | .hbm, ⟨4, _⟩ => ⟨S4x4096x256, .f32⟩
  | .hbm, ⟨5, _⟩ => ⟨S4x4096x256, .f32⟩
  | .hbm, ⟨6, _⟩ => ⟨S4x4096x256, .f32⟩
  | .hbm, ⟨7, _⟩ => ⟨S_, .f32⟩
  | .hbm, ⟨8, _⟩ => ⟨S4x4096x256, .f32⟩
  | .hbm, ⟨9, _⟩ => ⟨S4x4096x256, .f32⟩
  | .hbm, ⟨10, _⟩ => ⟨S_, .f32⟩
  | .hbm, ⟨11, _⟩ => ⟨S4x4096x256, .f32⟩
  | .hbm, ⟨12, _⟩ => ⟨S4x4096x256, .f32⟩
  | .hbm, ⟨13, _⟩ => ⟨S4x4096x256, .f32⟩
  | .hbm, ⟨14, _⟩ => ⟨S4x4096x8192, .f32⟩
  | .hbm, ⟨15, _⟩ => ⟨S1x1x8192, .f32⟩
  | .hbm, ⟨16, _⟩ => ⟨S4x4096x8192, .f32⟩
  | .hbm, ⟨17, _⟩ => ⟨S4x4096x8192, .f32⟩
  | .hbm, ⟨18, _⟩ => ⟨S4x4096x2048x4, .f32⟩
  | .hbm, ⟨19, _⟩ => ⟨S_, .i32⟩
  | .hbm, ⟨20, _⟩ => ⟨S_, .f32⟩
  | .hbm, ⟨21, _⟩ => ⟨S4x4099x2048, .f32⟩
  | .hbm, ⟨22, _⟩ => ⟨S_, .f32⟩
  | .hbm, ⟨23, _⟩ => ⟨S4x4096x2048, .f32⟩
  | .hbm, ⟨24, _⟩ => ⟨S4x4096x2048x1, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S4x4096x2048x1, .f32⟩
  | .hbm, ⟨30, _⟩ => ⟨S4x4096x2048, .f32⟩
  | .hbm, ⟨31, _⟩ => ⟨S4x4096x2048, .f32⟩
  | .hbm, ⟨32, _⟩ => ⟨S4x4096x2048, .f32⟩
  | .hbm, ⟨33, _⟩ => ⟨S4x4096x2048, .f32⟩
  | .hbm, ⟨34, _⟩ => ⟨S4x4096x2048x1, .f32⟩
  | .hbm, ⟨35, _⟩ => ⟨S4x4096x2048, .f32⟩
  | .hbm, ⟨36, _⟩ => ⟨S4x4096x2048, .f32⟩
  | .hbm, ⟨37, _⟩ => ⟨S4x4096x2048, .f32⟩
  | .hbm, ⟨38, _⟩ => ⟨S4x4096x2048, .f32⟩
  | .hbm, ⟨39, _⟩ => ⟨S4x4096x2048x1, .f32⟩
  | .hbm, ⟨40, _⟩ => ⟨S4x4096x2048, .f32⟩
  | .hbm, ⟨41, _⟩ => ⟨S4x4096x2048, .f32⟩
  | .hbm, ⟨42, _⟩ => ⟨S4x4096x2048, .f32⟩
  | .hbm, ⟨43, _⟩ => ⟨S4x4096x2048, .f32⟩
  | .hbm, ⟨44, _⟩ => ⟨S4x4096x2048, .f32⟩
  | .hbm, ⟨45, _⟩ => ⟨S4x4096x2048, .f32⟩
  | .hbm, ⟨46, _⟩ => ⟨S_, .f32⟩
  | .hbm, ⟨47, _⟩ => ⟨S4x4096x2048, .f32⟩
  | .hbm, ⟨48, _⟩ => ⟨S4x4096x2048, .f32⟩
  | .hbm, ⟨49, _⟩ => ⟨S_, .f32⟩
  | .hbm, ⟨50, _⟩ => ⟨S4x4096x2048, .f32⟩
  | .hbm, ⟨51, _⟩ => ⟨S4x4096x2048, .f32⟩
  | .hbm, ⟨52, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_call1_v0 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call2_v0 : Ref sig .tc := ⟨.hbm, 44, rfl⟩
abbrev main_call2_v1 : Ref sig .tc := ⟨.hbm, 45, rfl⟩
abbrev main_call2_cst : Ref sig .tc := ⟨.hbm, 46, rfl⟩
abbrev main_call2_v2 : Ref sig .tc := ⟨.hbm, 47, rfl⟩
abbrev main_call2_v3 : Ref sig .tc := ⟨.hbm, 48, rfl⟩
abbrev main_call2_cst_0 : Ref sig .tc := ⟨.hbm, 49, rfl⟩
abbrev main_call2_v4 : Ref sig .tc := ⟨.hbm, 50, rfl⟩
abbrev main_call2_v5 : Ref sig .tc := ⟨.hbm, 51, rfl⟩
abbrev main_v29 : Ref sig .tc := ⟨.hbm, 52, rfl⟩

abbrev nD : Nat := 1
abbrev τ : Topo := Topo.v7x

variable {F : FTy → Type} [FloatOps F]

class Facts₀ : Prop where
  bcast_S_S4x4096x256 : S_.BroadcastsInDim S4x4096x256 (![] : Fin 0 → Fin S4x4096x256.rank)
  bcast_S8192_S1x1x8192_2 : S8192.BroadcastsInDim S1x1x8192 (![2] : Fin 1 → Fin S1x1x8192.rank)
  bcast_S1x1x8192_S4x4096x8192_0_1_2 : S1x1x8192.BroadcastsInDim S4x4096x8192 (![0, 1, 2] : Fin 3 → Fin S4x4096x8192.rank)
  shapeCasts_S4x4096x8192_S4x4096x2048x4 : S4x4096x8192.ShapeCasts S4x4096x2048x4
  pads_S4x4096x2048_S4x4099x2048_000_300_000 : S4x4096x2048.Pads (![0, 3, 0] : Fin 3 → Nat) ![0, 0, 0] ![0, 0, 0] S4x4099x2048
  h_S_ : 0 < S_.numel
  bcast_S_S4x4096x2048 : S_.BroadcastsInDim S4x4096x2048 (![] : Fin 0 → Fin S4x4096x2048.rank)
  slices_S4x4096x2048x4_S4x4096x2048x1_0_0_0_0 : S4x4096x2048x4.Slices ![0, 0, 0, 0] S4x4096x2048x1
  shapeCasts_S4x4096x2048x1_S4x4096x2048 : S4x4096x2048x1.ShapeCasts S4x4096x2048
  slices_S4x4099x2048_S4x4096x2048_0_0_0 : S4x4099x2048.Slices ![0, 0, 0] S4x4096x2048
  slices_S4x4096x2048x4_S4x4096x2048x1_0_0_0_1 : S4x4096x2048x4.Slices ![0, 0, 0, 1] S4x4096x2048x1
  slices_S4x4099x2048_S4x4096x2048_0_1_0 : S4x4099x2048.Slices ![0, 1, 0] S4x4096x2048
  slices_S4x4096x2048x4_S4x4096x2048x1_0_0_0_2 : S4x4096x2048x4.Slices ![0, 0, 0, 2] S4x4096x2048x1
  slices_S4x4099x2048_S4x4096x2048_0_2_0 : S4x4099x2048.Slices ![0, 2, 0] S4x4096x2048
  slices_S4x4096x2048x4_S4x4096x2048x1_0_0_0_3 : S4x4096x2048x4.Slices ![0, 0, 0, 3] S4x4096x2048x1
  slices_S4x4099x2048_S4x4096x2048_0_3_0 : S4x4099x2048.Slices ![0, 3, 0] S4x4096x2048
  dot_S4x4096x2048_S2048x256_S4x4096x256_2_0_01_1_n_n_wf : DotDims.WF S4x4096x2048 S2048x256 S4x4096x256 [2] [0] [0, 1] [1] [] []
  dot_S4x4096x256_S256x8192_S4x4096x8192_2_0_01_1_n_n_wf : DotDims.WF S4x4096x256 S256x8192 S4x4096x8192 [2] [0] [0, 1] [1] [] []

variable [Facts₀]

def dot_S4x4096x2048_S2048x256_S4x4096x256_2_0_01_1_n_n : DotDims S4x4096x2048 S2048x256 S4x4096x256 where
  lhsContracting := [2]
  rhsContracting := [0]
  lhsNonContracting := [0, 1]
  rhsNonContracting := [1]
  lhsBatch := []
  rhsBatch := []
  wf := dot_S4x4096x2048_S2048x256_S4x4096x256_2_0_01_1_n_n_wf
def dot_S4x4096x256_S256x8192_S4x4096x8192_2_0_01_1_n_n : DotDims S4x4096x256 S256x8192 S4x4096x8192 where
  lhsContracting := [2]
  rhsContracting := [0]
  lhsNonContracting := [0, 1]
  rhsNonContracting := [1]
  lhsBatch := []
  rhsBatch := []
  wf := dot_S4x4096x256_S256x8192_S4x4096x8192_2_0_01_1_n_n_wf

class Facts : Prop extends Facts₀ where

variable [Facts]
-- ==== Proof.BitsEntry.lean ====
/-
  What the one pipelined region finds when it is entered, and what its body is handed.

  The program is a line of host operations (the second layer's weights and bias re-laid tap-major, both
  weight matrices rounded) followed by the region. The region's windows: the input `x` twice — the tile
  itself and the eight rows before it —, the two weight matrices and the bias whole, and the result's tile.
  The host operations write none of the four argument arrays. Every input window's staging buffer holds
  the window's block of its array at every grid point. The only scoped buffer the pipeline does not
  stage is the 264-row scratch, which the body may use freely: the region invariant is that buffer at
  some contents.
-/
import proofs.«174678_j51651276701955_2_alg».proof.Proof.Gen.Kernel.Launch
import proofs.«174678_j51651276701955_2_alg».proof.Proof.Gen.Kernel.Skeleton
import proofs.«174678_j51651276701955_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Conv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch contents after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is the entry contents and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is the entry contents and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is the entry contents and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is the entry contents and whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs and the scratch -/

/-- One staging buffer of the result's window, through which its contents are stated. -/
abbrev VO5 : View sig .tc .vmem S1x256x2048 .f32 := (Memref.whole cc0_stg5_0 : Memref sig .tc .vmem S1x256x2048 .f32).view
/-- Each window's current staging memref at point `t`, as the pipeline passes it, and its wholeness. -/
abbrev ms0 (t : Fin cfg0.N) : Memref sig .tc .vmem S1x256x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x8x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x8192 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S8192 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256x2048 .f32 := win0_5.stage (cfg0.slots t 5)
abbrev hs5 (t : Fin cfg0.N) : (ms5 t).IsWhole := hstage0_5 ((cfg0.slots t 5).cast nbuf0_5)
/-- The scratch: a whole scoped buffer of the kernel's own. -/
abbrev scM : Memref sig .tc .vmem S264x2048 .f32 := Memref.whole cc0_scratch0

/-- The region invariant: the scratch owned at some contents. -/
def PhiS (c : Dev nD) : sProp 𝕄 := iprop(∃ d, owns (c : Thread nD τ) scM fullShare d)

/-- The scoped buffers the pipeline does not stage are the scratch. -/
theorem PhiS_eq (c : Dev nD) :
    (Pipeline.scopedRest (Ix := Unit) (Name := ℕ) (U := UR sig nD τ) (Lvl := ℕ) (Val := Elt F) spec0 c : sProp 𝕄) = PhiS (F := F) c := by
  unfold PhiS; rw [scopedRest0_eq]; simp only [scM, owns_whole]; try rfl

/-! ## The body's two branches -/

/-- The first branch is taken: the tile is the first of its sequence (second grid coordinate zero). -/
abbrev condFirst (i : grid0.Coords) : Prop := (Scalar.cmpi .ne (Scalar.extui (Scalar.cmpi .eq (BitVec.ofNat 32 (i 1).val) 0#32)) 0#32) = 1#1
/-- The second branch is taken: the tile is not the first of its sequence. -/
abbrev condLater (i : grid0.Coords) : Prop := (Scalar.cmpi .ne (Scalar.extui (Scalar.cmpi .ne (BitVec.ofNat 32 (i 1).val) 0#32)) 0#32) = 1#1

/-- Over the grid of 4 × 16 points the first branch is taken at the points whose number is a multiple of 16, -/
theorem hcondFirst : ∀ t : Fin cfg0.N, condFirst (grid0.coords t) ↔ t.val % 16 = 0 :=
  (by decide +kernel : ∀ t : Fin grid0.N, condFirst (grid0.coords t) ↔ t.val % 16 = 0)
/-- and the second at all the others. -/
theorem hcondLater : ∀ t : Fin cfg0.N, condLater (grid0.coords t) ↔ ¬ t.val % 16 = 0 :=
  (by decide +kernel : ∀ t : Fin grid0.N, condLater (grid0.coords t) ↔ ¬ t.val % 16 = 0)

end Cert.Kernel.Conv

end
-- ==== Proof.BitsTileFn.lean ====
/-
  One tile of the kernel's result as a pure function of what the body loads.

  The body keeps a window of 264 rows: eight rows that precede the tile (zero at a sequence's first tile,
  the last eight rows of the tile before otherwise) followed by the tile's own 256 rows. Tap `w` reads the
  256 rows of that window that start at row `5 + w`. The block the body stores is the payload chain of the
  printed function applied to the tile, the generator's weights and those four shifted reads.
-/
import proofs.«174678_j51651276701955_2_alg».proof.Proof.Gen.Kernel.Skeleton
import Idealize.ShloMosaic.Lib.ValueIdx

noncomputable section

namespace Cert.Kernel.Tile

open Idealize.ShloMosaic Idealize.ShloMosaic.ValueIdx Cert.Kernel Cert.Kernel.Gen

variable {F : FTy → Type} [FloatOps F]

/-- The window of 264 rows: `pad` on rows 0–7, `cur` on rows 8–263. -/
def window (pad : FVec F S8x2048 .f32) (cur : FVec F S256x2048 .f32) : FVec F S264x2048 .f32 :=
  fun j => if h : (j 0).val < 8 then pad (ix2 (⟨(j 0).val, h⟩ : Fin 8) (⟨(j 1).val, idx2_lt1 j⟩ : Fin 2048))
    else cur (ix2 (⟨(j 0).val - 8, by have := idx2_lt0 j; omega⟩ : Fin 256) (⟨(j 1).val, idx2_lt1 j⟩ : Fin 2048))

/-- Rows `k` to `k + 255` of the window. -/
def rowsFrom (k : Nat) (hk : k ≤ 8) (pad : FVec F S8x2048 .f32) (cur : FVec F S256x2048 .f32) : FVec F S256x2048 .f32 :=
  fun j => window pad cur (ix2 (⟨(j 0).val + k, by have := idx2_lt0 j; omega⟩ : Fin 264) (⟨(j 1).val, idx2_lt1 j⟩ : Fin 2048))

/-- The block the body stores, from the tile `x0`, the first layer's weights `x2`, the second layer's `x3`,
    its bias `x4` and the eight preceding rows `pad`. -/
def tileOut (x0 : Vec F S1x256x2048 .f32) (x2 : Vec F S2048x256 .bf16) (x3 : Vec F S256x8192 .bf16) (x4 : Vec F S8192 .f32)
    (pad : FVec F S8x2048 .f32) : FVec F S1x256x2048 .f32 :=
  k0_pay1 (k0_pay3 x0 x2 x3 x4)
    (k0_pay7 x0 x2 x3 x4 (rowsFrom 5 (by omega) pad (k0_pay4 x0)))
    (k0_pay8 x0 x2 x3 x4 (rowsFrom 6 (by omega) pad (k0_pay4 x0)))
    (rowsFrom 7 (by omega) pad (k0_pay4 x0))
    (rowsFrom 8 (by omega) pad (k0_pay4 x0))

end Cert.Kernel.Tile

end
-- ==== Proof.BitsScratch.lean ====
/-
  What a load of 256 consecutive rows of the 264-row scratch reads after the body's two stores into it.

  The body stores the eight preceding rows at row 0 and the tile at row 8; together the two rectangles
  tile the scratch, so at every row the scratch holds the window of `BitsTileFn`: `pad` on rows 0–7 and the
  tile on rows 8–263. A load of the 256 rows from row `k` therefore reads rows `k` to `k + 255` of that window.
-/
import proofs.«174678_j51651276701955_2_alg».proof.Proof.BitsTileFn
import Idealize.ShloMosaic.Lib.Pipeline.FrameBody
import Idealize.ShloMosaic.Lib.Pipeline.Value

noncomputable section

namespace Cert.Kernel.Tile

open Idealize.ShloMosaic Idealize.ShloMosaic.ValueIdx Cert.Kernel Cert.Kernel.Gen

variable {F : FTy → Type} [FloatOps F]

/-- The stored eight rows are the window's rows 0–7. -/
theorem pad_piece (pad : FVec F S8x2048 .f32) (cur : FVec F S256x2048 .f32)
    (inb0 : ∀ a, (![0, 0] : Fin S264x2048.rank → Nat) a + S8x2048.size a ≤ S264x2048.size a)
    (x : (Rect.unit (s := S264x2048) ![0, 0] S8x2048.size inb0).shape.Idx) :
    pad x = window pad cur ((Rect.unit (s := S264x2048) ![0, 0] S8x2048.size inb0).emb x) := by
  have h0 : (((Rect.unit (s := S264x2048) ![0, 0] S8x2048.size inb0).emb x) 0).val = (x 0).val := by
    rw [Rect.emb_apply]; simp
  have h1 : (((Rect.unit (s := S264x2048) ![0, 0] S8x2048.size inb0).emb x) 1).val = (x 1).val := by
    rw [Rect.emb_apply]; simp
  have hx : (x 0).val < 8 := (x 0).isLt
  unfold window
  rw [dif_pos (by rw [h0]; exact hx)]
  refine congrArg pad ?_
  funext a; apply Fin.ext
  match a with
  | ⟨0, _⟩ => exact h0.symm
  | ⟨1, _⟩ => exact h1.symm

/-- The stored tile is the window's rows 8–263. -/
theorem cur_piece (pad : FVec F S8x2048 .f32) (cur : FVec F S256x2048 .f32)
    (inb8 : ∀ a, (![8, 0] : Fin S264x2048.rank → Nat) a + S256x2048.size a ≤ S264x2048.size a)
    (x : (Rect.unit (s := S264x2048) ![8, 0] S256x2048.size inb8).shape.Idx) :
    cur x = window pad cur ((Rect.unit (s := S264x2048) ![8, 0] S256x2048.size inb8).emb x) := by
  have h0 : (((Rect.unit (s := S264x2048) ![8, 0] S256x2048.size inb8).emb x) 0).val = 8 + (x 0).val := by
    rw [Rect.emb_apply]; simp
  have h1 : (((Rect.unit (s := S264x2048) ![8, 0] S256x2048.size inb8).emb x) 1).val = (x 1).val := by
    rw [Rect.emb_apply]; simp
  unfold window
  rw [dif_neg (by rw [h0]; omega)]
  refine congrArg cur ?_
  funext a; apply Fin.ext
  match a with
  | ⟨0, _⟩ => show (x 0).val = _ - 8; rw [h0]; omega
  | ⟨1, _⟩ => exact h1.symm

/-- After the two stores the scratch reads, at every index, as the window. -/
theorem canon_window (pad : FVec F S8x2048 .f32) (cur : FVec F S256x2048 .f32)
    (inb0 : ∀ a, (![0, 0] : Fin S264x2048.rank → Nat) a + S8x2048.size a ≤ S264x2048.size a)
    (inb8 : ∀ a, (![8, 0] : Fin S264x2048.rank → Nat) a + S256x2048.size a ≤ S264x2048.size a) (y : S264x2048.Idx) :
    View.canon (Val := Elt F) [(⟨Rect.unit (s := S264x2048) ![0, 0] S8x2048.size inb0, pad⟩ : View.Piece (Elt F) S264x2048 .f32),
        ⟨Rect.unit (s := S264x2048) ![8, 0] S256x2048.size inb8, cur⟩] y = window pad cur y := by
  refine View.canon_apply_of_pieces (Val := Elt F) (S := S264x2048) (e := .f32) (window pad cur) _ ?_ y ?_
  · intro p hp x
    rcases List.mem_cons.mp hp with rfl | hp
    · exact pad_piece pad cur inb0 x
    · rcases List.mem_cons.mp hp with rfl | hp
      · exact cur_piece pad cur inb8 x
      · exact absurd hp List.not_mem_nil
  · have hy0 : (y 0).val < 264 := idx2_lt0 y
    have hy1 : (y 1).val < 2048 := idx2_lt1 y
    by_cases h : (y 0).val < 8
    · refine ⟨(⟨Rect.unit (s := S264x2048) ![0, 0] S8x2048.size inb0, pad⟩ : View.Piece (Elt F) S264x2048 .f32), List.mem_cons_self, (Rect.mem_set_unit (inb := inb0)).mpr fun a => ?_⟩
      match a with
      | ⟨0, _⟩ => exact ⟨Nat.zero_le _, by show (y 0).val < 0 + 8; omega⟩
      | ⟨1, _⟩ => exact ⟨Nat.zero_le _, by show (y 1).val < 0 + 2048; omega⟩
    · refine ⟨(⟨Rect.unit (s := S264x2048) ![8, 0] S256x2048.size inb8, cur⟩ : View.Piece (Elt F) S264x2048 .f32), List.mem_cons_of_mem _ List.mem_cons_self, (Rect.mem_set_unit (inb := inb8)).mpr fun a => ?_⟩
      match a with
      | ⟨0, _⟩ => exact ⟨by show 8 ≤ (y 0).val; omega, by show (y 0).val < 8 + 256; omega⟩
      | ⟨1, _⟩ => exact ⟨Nat.zero_le _, by show (y 1).val < 0 + 2048; omega⟩

/-- A load of the 256 rows from row `k` reads rows `k` to `k + 255` of the window. -/
theorem readCov_rows {κ : Kind} {sp : Space} {sg : RefSig} (v : View sg κ sp S264x2048 .f32) (pad : FVec F S8x2048 .f32) (cur : FVec F S256x2048 .f32)
    (inb0 : ∀ a, (![0, 0] : Fin S264x2048.rank → Nat) a + S8x2048.size a ≤ S264x2048.size a)
    (inb8 : ∀ a, (![8, 0] : Fin S264x2048.rank → Nat) a + S256x2048.size a ≤ S264x2048.size a)
    (k : Nat) (hk : k ≤ 8) (inbk : ∀ a, (![k, 0] : Fin S264x2048.rank → Nat) a + S256x2048.size a ≤ S264x2048.size a) :
    v.readCov (Val := Elt F) [(⟨Rect.unit (s := S264x2048) ![0, 0] S8x2048.size inb0, pad⟩ : View.Piece (Elt F) S264x2048 .f32),
        ⟨Rect.unit (s := S264x2048) ![8, 0] S256x2048.size inb8, cur⟩]
      (Rect.unit (s := S264x2048) ![k, 0] S256x2048.size inbk).toLoadRect = rowsFrom k hk pad cur := by
  rw [View.readCov_eq_canon']
  funext j
  rw [canon_window]
  unfold rowsFrom
  refine congrArg (window pad cur) ?_
  funext a; apply Fin.ext
  match a with
  | ⟨0, _⟩ => simp [LoadRect.idx_apply, ix2]; omega
  | ⟨1, _⟩ => simp [LoadRect.idx_apply, ix2]

end Cert.Kernel.Tile

end
-- ==== Proof.BitsBodyFirst.lean ====
/-
  The body at the first tile of a sequence.

  There the first branch is taken and the second is not: the eight rows before the tile are stored as
  zeros. On whole staging buffers holding the tile, the preceding rows' block, both weight matrices and the
  bias, the body runs to its end without a fault, leaves those five buffers as they were, and leaves in the
  result's buffer the tile function of `BitsTileFn` at zero padding; the scratch ends at some contents.
-/
import proofs.«174678_j51651276701955_2_alg».proof.Proof.BitsEntry
import proofs.«174678_j51651276701955_2_alg».proof.Proof.BitsScratch

set_option maxRecDepth 16384

noncomputable section

namespace Cert.Kernel.Conv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.Kernel.Tile

theorem zeros3First : (![0, 0, 0] : Fin S1x256x2048.rank → Nat) = fun _ => 0 := by
  funext a; match a with | ⟨0, _⟩ => rfl | ⟨1, _⟩ => rfl | ⟨2, _⟩ => rfl
theorem zeros2First : (![0, 0] : Fin S2048x256.rank → Nat) = fun _ => 0 := by
  funext a; match a with | ⟨0, _⟩ => rfl | ⟨1, _⟩ => rfl
theorem zeros1First : (![0] : Fin S8192.rank → Nat) = fun _ => 0 := by
  funext a; match a with | ⟨0, _⟩ => rfl

set_option maxHeartbeats 1000000 in
/-- The body's triple in this case, on any whole memrefs. -/
theorem runFirst (c : Dev nD) (i : grid0.Coords) (arg2 : Memref sig .tc .vmem S1x256x2048 .f32) (harg2 : arg2.IsWhole) (arg3 : Memref sig .tc .vmem S1x8x2048 .f32) (harg3 : arg3.IsWhole) (arg4 : Memref sig .tc .vmem S2048x256 .bf16) (harg4 : arg4.IsWhole) (arg5 : Memref sig .tc .vmem S256x8192 .bf16) (harg5 : arg5.IsWhole) (arg6 : Memref sig .tc .vmem S8192 .f32) (harg6 : arg6.IsWhole) (arg7 : Memref sig .tc .vmem S1x256x2048 .f32) (harg7 : arg7.IsWhole) (arg8 : Memref sig .tc .vmem S264x2048 .f32) (harg8 : arg8.IsWhole)
    (hc0 : condFirst i) (hc1 : ¬condLater i)
    (x0 : Vec F S1x256x2048 .f32) (x1 : Vec F S1x8x2048 .f32) (x2 : Vec F S2048x256 .bf16) (x3 : Vec F S256x8192 .bf16) (x4 : Vec F S8192 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (tileOut x0 x2 x3 x4 (k0_pay5 (F := F))) ∗ (∃ d, owns (c : Thread nD τ) arg8 fullShare d)) -∗ K ⟨⟩))
      ⊢ wp frame (wpE (defs₀ (F := F)) Variants.none c none) E (cc0__kernel i arg2 harg2 arg3 harg3 arg4 harg4 arg5 harg5 arg6 harg6 arg7 harg7 arg8 harg8) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    sl_unfold_run_names
    rw [View.read_writes_eq_canon _ _ _ (fun y => ⟨_, List.mem_singleton_self _, View.mem_set_unit_zero zeros3First inb_S1x256x2048_S1x256x2048_0_0_0 y⟩),
      View.canon_unit_zero zeros3First]
    simp only [View.readAt_eq_ld, harg2.read_unread, harg3.read_unread, harg4.read_unread, harg5.read_unread, harg6.read_unread,
      View.ld_unit_zero (S := S1x256x2048) zeros3First, View.ld_unit_zero (S := S1x8x2048) zeros3First,
      View.ld_unit_zero (S := S2048x256) zeros2First, View.ld_unit_zero (S := S256x8192) zeros2First,
      View.ld_unit_zero (S := S8192) zeros1First]
    unfold tileOut
    rw [readCov_rows _ _ _ _ _ 5 (by omega), readCov_rows _ _ _ _ _ 6 (by omega), readCov_rows _ _ _ _ _ 7 (by omega),
      readCov_rows _ _ _ _ _ 8 (by omega)]
  iexists _, _; isplitr; swap; · iexact HS
  ipureintro; rfl

end Cert.Kernel.Conv

end
-- ==== Proof.BitsBodyLater.lean ====
/-
  The body at a tile that is not the first of its sequence.

  There the second branch is taken and the first is not: the eight rows before the tile are copied from
  the window that stages the previous tile's last eight rows. On whole staging buffers holding the tile,
  those eight rows, both weight matrices and the bias, the body runs to its end without a fault, leaves
  those five buffers as they were, and leaves in the result's buffer the tile function of `BitsTileFn` at that
  padding; the scratch ends at some contents.
-/
import proofs.«174678_j51651276701955_2_alg».proof.Proof.BitsEntry
import proofs.«174678_j51651276701955_2_alg».proof.Proof.BitsScratch

set_option maxRecDepth 16384

noncomputable section

namespace Cert.Kernel.Conv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.Kernel.Tile

theorem zeros3Later : (![0, 0, 0] : Fin S1x256x2048.rank → Nat) = fun _ => 0 := by
  funext a; match a with | ⟨0, _⟩ => rfl | ⟨1, _⟩ => rfl | ⟨2, _⟩ => rfl
theorem zeros2Later : (![0, 0] : Fin S2048x256.rank → Nat) = fun _ => 0 := by
  funext a; match a with | ⟨0, _⟩ => rfl | ⟨1, _⟩ => rfl
theorem zeros1Later : (![0] : Fin S8192.rank → Nat) = fun _ => 0 := by
  funext a; match a with | ⟨0, _⟩ => rfl

set_option maxHeartbeats 1000000 in
/-- The body's triple in this case, on any whole memrefs. -/
theorem runLater (c : Dev nD) (i : grid0.Coords) (arg2 : Memref sig .tc .vmem S1x256x2048 .f32) (harg2 : arg2.IsWhole) (arg3 : Memref sig .tc .vmem S1x8x2048 .f32) (harg3 : arg3.IsWhole) (arg4 : Memref sig .tc .vmem S2048x256 .bf16) (harg4 : arg4.IsWhole) (arg5 : Memref sig .tc .vmem S256x8192 .bf16) (harg5 : arg5.IsWhole) (arg6 : Memref sig .tc .vmem S8192 .f32) (harg6 : arg6.IsWhole) (arg7 : Memref sig .tc .vmem S1x256x2048 .f32) (harg7 : arg7.IsWhole) (arg8 : Memref sig .tc .vmem S264x2048 .f32) (harg8 : arg8.IsWhole)
    (hc0 : ¬condFirst i) (hc1 : condLater i)
    (x0 : Vec F S1x256x2048 .f32) (x1 : Vec F S1x8x2048 .f32) (x2 : Vec F S2048x256 .bf16) (x3 : Vec F S256x8192 .bf16) (x4 : Vec F S8192 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (tileOut x0 x2 x3 x4 (k0_pay6 x1)) ∗ (∃ d, owns (c : Thread nD τ) arg8 fullShare d)) -∗ K ⟨⟩))
      ⊢ wp frame (wpE (defs₀ (F := F)) Variants.none c none) E (cc0__kernel i arg2 harg2 arg3 harg3 arg4 harg4 arg5 harg5 arg6 harg6 arg7 harg7 arg8 harg8) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    sl_unfold_run_names
    rw [View.read_writes_eq_canon _ _ _ (fun y => ⟨_, List.mem_singleton_self _, View.mem_set_unit_zero zeros3Later inb_S1x256x2048_S1x256x2048_0_0_0 y⟩),
      View.canon_unit_zero zeros3Later]
    simp only [View.readAt_eq_ld, harg2.read_unread, harg3.read_unread, harg4.read_unread, harg5.read_unread, harg6.read_unread,
      View.ld_unit_zero (S := S1x256x2048) zeros3Later, View.ld_unit_zero (S := S1x8x2048) zeros3Later,
      View.ld_unit_zero (S := S2048x256) zeros2Later, View.ld_unit_zero (S := S256x8192) zeros2Later,
      View.ld_unit_zero (S := S8192) zeros1Later]
    unfold tileOut
    rw [readCov_rows _ _ _ _ _ 5 (by omega), readCov_rows _ _ _ _ _ 6 (by omega), readCov_rows _ _ _ _ _ 7 (by omega),
      readCov_rows _ _ _ _ _ 8 (by omega)]
  iexists _, _; isplitr; swap; · iexact HS
  ipureintro; rfl

end Cert.Kernel.Conv

end
-- ==== Proof.BitsPoints.lean ====
/-
  The pipeline's proof data and the body obligation at every grid point.

  After the body at point `t` every input window's buffer still holds its block, and the result's buffer
  holds the tile function of `BitsTileFn`: at zero padding when `t` is the first tile of its sequence (its number
  a multiple of 16), at the previous tile's last eight rows otherwise. The array `x` is read through two
  windows, which hold its left and its right half share. The body obligation is the body's triple of the
  point's case; the invariant hands the body the scratch at some contents and takes it back at some contents.
-/
import proofs.«174678_j51651276701955_2_alg».proof.Proof.BitsBodyFirst
import proofs.«174678_j51651276701955_2_alg».proof.Proof.BitsBodyLater

set_option maxRecDepth 16384

noncomputable section

namespace Cert.Kernel.Conv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.Kernel.Tile

/-- What the result's staging buffer holds after the body at point `t`. -/
def outAt (c : Dev nD) (t : Fin cfg0.N) : Vec F S1x256x2048 .f32 :=
  if t.val % 16 = 0 then tileOut (iblk m c 0 t) (iblk m c 2 t) (iblk m c 3 t) (iblk m c 4 t) (k0_pay5 (F := F))
  else tileOut (iblk m c 0 t) (iblk m c 2 t) (iblk m c 3 t) (iblk m c 4 t) (k0_pay6 (iblk m c 1 t))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := PhiS c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

/-- The proof data's arrays are the region-entry contents. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

/-- The body at any point, by the point's case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  rw [show (dats m 0 c).Φ t.castSucc = PhiS c from rfl]
  unfold PhiS outAt
  by_cases h : t.val % 16 = 0
  · rw [if_pos h]
    iintro ⟨HS, Ho, ⟨%d0, H0⟩, ⟨%d1, H1⟩, ⟨%d2, H2⟩, ⟨%d3, H3⟩, ⟨%d4, H4⟩, ⟨%d5, H5⟩⟩
    iapply (runFirst c (grid0.coords t) _ _ _ _ _ _ _ _ _ _ _ _ _ _ ((hcondFirst t).mpr h) (fun hl => ((hcondLater t).mp hl) h)
      (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    iexact H5
  · rw [if_neg h]
    iintro ⟨HS, Ho, ⟨%d0, H0⟩, ⟨%d1, H1⟩, ⟨%d2, H2⟩, ⟨%d3, H3⟩, ⟨%d4, H4⟩, ⟨%d5, H5⟩⟩
    iapply (runLater c (grid0.coords t) _ _ _ _ _ _ _ _ _ _ _ _ _ _ (fun hf => h ((hcondFirst t).mp hf)) ((hcondLater t).mpr h)
      (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Conv

end
-- ==== Proof.LibSharedFrame.lean ====
/-
  The frame run of one pipelined region whose input windows may read ONE array through several windows.

  The launch theorems of the pipeline library hold every window's array at the full share, which needs the
  windows' arrays pairwise distinct. When two input windows stage blocks of the same array, the array's full
  share is dealt among them instead: the certificate says how the distinct buffers behind the windows, each
  whole at the full share at the region's entry, make the proof data's arrays at the shares it names
  (`hsplit`). Everything else is as for distinct arrays: the scoped buffers the pipeline does not stage
  enter the region invariant at point 0 and are handed back after the last point; every unscoped buffer
  that is no window's array bypasses the region and is read back as the region found it; and every window's
  array ends at what the proof data compute from the write-backs. The generator register is not handed to
  the body (a body that draws no random bits needs none).
-/
import Idealize.ShloMosaic.Lib.Pipeline.Frame

noncomputable section

namespace Cert.LibSharedFrame

open Idealize.ShloMosaic Idealize.ShloMosaic.Pipeline
open Idealize.SL
open Idealize.SL.BI (sProp bigSep bigSep_map)
open scoped Idealize.SL.BI
open Idealize.SL.BI.BIBase Idealize.SL.BI.Laws Idealize.SL.Sem Idealize.SL.ProofMode
open Idealize.SL.RA
open TcCoe
open Idealize.ShloMosaic.Rounds

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- Every weakly fair execution of a program that is host operations followed by one pipelined region
    terminates without a fault, each window's array ending at the proof data's `arrAt … N` and every other
    unscoped buffer as the region found it — for windows that may share arrays, the full share of each
    distinct array dealt among its windows by `hsplit`. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (Ix := Unit) (Name := ℕ) (U := UR sig nD τ) (Lvl := ℕ) (Val := Val) (cfgs p).spec c : sProp 𝕄) ⊢ (dats p c).Φ 0)
    (hout : ∀ c, (dats p c).Φ (Fin.last (cfgs p).N) ⊢ (scopedRest (Ix := Unit) (Name := ℕ) (U := UR sig nD τ) (Lvl := ℕ) (Val := Val) (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr; · iempintro
      iexact HU)
    (hin := fun c => (show _ ⊢ (scopedRest (Ix := Unit) (Name := ℕ) (U := UR sig nD τ) (Lvl := ℕ) (Val := Val) (cfgs p).spec c : sProp 𝕄) from by
      iintro ⟨-, Hr⟩; iexact Hr).trans (hin c))
    (hout := fun c => (hout c).trans (by
      iintro Hr
      isplitr; · iempintro
      iexact Hr))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Cert.LibSharedFrame

end
-- ==== Proof.BitsLaunch.lean ====
/-
  The region launched, and the frame.

  The five distinct buffers behind the six windows — `x` (read through two windows), the two rounded weight
  matrices, the re-laid bias and the result — are held whole at the full share when the region is entered.
  The full share of `x` splits into its left and right halves, one per window; the others go to their one
  window whole. With the body obligation this gives the run of the whole program: it terminates without a
  fault, every window's array ends at what the write-backs make of it, and every other unscoped buffer is
  as the region found it. The four argument arrays are among those and the host operations before the
  region write none of them: they end as launched.
-/
import proofs.«174678_j51651276701955_2_alg».proof.Proof.BitsPoints
import proofs.«174678_j51651276701955_2_alg».proof.Proof.LibSharedFrame

set_option maxRecDepth 16384

noncomputable section

namespace Cert.Kernel.Conv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The share each window holds of its array: the two windows on `x` its two halves, the others all of theirs. -/
theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl
theorem share5 (c : Dev nD) : (dats m 0 c).share 5 = fullShare := rfl

/-- The windows' arrays at any contents, window by window, at the shares the proof data name. -/
theorem arrays_list (c : Dev nD) (Fn : (w : Fin cfg0.W) → Buf (Elt F) ((cfg0.win w).arr.view.loc (c.tc : Thread nD τ))) :
    ((dats m 0 c).arrays Fn : sProp 𝕄)
      = iprop(((cfg0.win 0).arr.view.loc (c.tc : Thread nD τ) ↦{fullShare.left} Fn 0)
          ∗ ((cfg0.win 1).arr.view.loc (c.tc : Thread nD τ) ↦{fullShare.right} Fn 1)
          ∗ ((cfg0.win 2).arr.view.loc (c.tc : Thread nD τ) ↦{fullShare} Fn 2)
          ∗ ((cfg0.win 3).arr.view.loc (c.tc : Thread nD τ) ↦{fullShare} Fn 3)
          ∗ ((cfg0.win 4).arr.view.loc (c.tc : Thread nD τ) ↦{fullShare} Fn 4)
          ∗ ((cfg0.win 5).arr.view.loc (c.tc : Thread nD τ) ↦{fullShare} Fn 5)) := by
  have h0 : (cfg0.win 0).arr.IsWhole := arr_whole0 0
  have h1 : (cfg0.win 1).arr.IsWhole := arr_whole0 1
  have h2 : (cfg0.win 2).arr.IsWhole := arr_whole0 2
  have h3 : (cfg0.win 3).arr.IsWhole := arr_whole0 3
  have h4 : (cfg0.win 4).arr.IsWhole := arr_whole0 4
  have h5 : (cfg0.win 5).arr.IsWhole := arr_whole0 5
  unfold Dat.arrays
  rw [bigSep_W0, h0.set_eq_univ, h2.set_eq_univ, h3.set_eq_univ, h4.set_eq_univ, h5.set_eq_univ,
    share0, share1, share2, share3, share4, share5]

/-- The distinct buffers behind the windows' arrays, one by one, at any contents. -/
theorem arrBufs_list (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_arg0) ↦{fullShare} W main_arg0)
          ∗ (((c.tc : Thread nD τ).loc main_call0_v6) ↦{fullShare} W main_call0_v6)
          ∗ (((c.tc : Thread nD τ).loc main_call0_v7) ↦{fullShare} W main_call0_v7)
          ∗ (((c.tc : Thread nD τ).loc main_call0_v5) ↦{fullShare} W main_call0_v5)
          ∗ (((c.tc : Thread nD τ).loc main_v0) ↦{fullShare} W main_v0)) := by
  unfold Pipeline.arrBufs
  rw [bigSep_eq_bigSepL_of_eq [main_arg0, main_call0_v6, main_call0_v7, main_call0_v5, main_v0] (by decide) (by decide)]
  rfl

/-- The full share of `x` dealt to its two windows; every other array to its one window: for any contents `W`
    of the buffers and any family `Fn` that reads them window by window. -/
theorem split_of (c : Dev nD) (W : (b : Ref sig .tc) → Buf (Elt F) ((c.tc : Thread nD τ).loc b))
    (Fn : (w : Fin cfg0.W) → Buf (Elt F) ((cfg0.win w).arr.view.loc (c.tc : Thread nD τ)))
    (hF : ∀ w, Fn w = W (Pipeline.arrRef spec0 w)) :
    (Pipeline.arrBufs (Ix := Unit) (Name := ℕ) (U := UR sig nD τ) (Lvl := ℕ) spec0 c W : sProp 𝕄) ⊢ (dats m 0 c).arrays Fn := by
  rw [arrays_list, arrBufs_list, hF 0, hF 1, hF 2, hF 3, hF 4, hF 5]
  iintro ⟨Hx, H6, H7, H5, Ho⟩
  ihave Hx' := (pointsTo_share (PosShare.mem_left_op_right fullShare)).1 $$ Hx
  icases Hx' with ⟨Hl, Hr⟩
  isplitl [Hl]; · iexact Hl
  isplitl [Hr]; · iexact Hr
  isplitl [H6]; · iexact H6
  isplitl [H7]; · iexact H7
  isplitl [H5]; · iexact H5
  iexact Ho

/-- At the region's entry. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) :=
  split_of m c (V m c) _ (fun w => A_eq m c w)

set_option backward.isDefEq.respectTransparency.types false in
/-- Every weakly fair execution of the program terminates without a fault; every window's array ends at
    what the proof data compute and every other unscoped buffer as the region found it. -/
theorem run_main : θ_run defs (onTc (τ := τ) (main (F := F))) (s₀ m ρ) (Pipeline.FramePost cfgs (dats m) 0 (V m)) :=
  Cert.LibSharedFrame.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m)
    (hin := fun c => by rw [PhiS_eq]; exact .rfl)
    (hout := fun c => by rw [PhiS_eq]; exact .rfl)

/-- In a final state of that run the four argument arrays are as launched. -/
theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩

/-- The four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => args_kept m r h c) (run_main m ρ)

end Cert.Kernel.Conv

end
-- ==== Proof.IdealEntry.lean ====
/-
  What the one pipelined region finds when it is entered, and what its body is handed.

  The program is a line of host operations (the second layer's weights and bias re-laid tap-major, both
  weight matrices rounded) followed by the region. The region's windows: the input `x` twice — the tile
  itself and the eight rows before it —, the two weight matrices and the bias whole, and the result's tile.
  The host operations write none of the four argument arrays. Every input window's staging buffer holds
  the window's block of its array at every grid point. The only scoped buffer the pipeline does not
  stage is the 264-row scratch, which the body may use freely: the region invariant is that buffer at
  some contents.
-/
import proofs.«174678_j51651276701955_2_alg».proof.Proof.Gen.KernelIdeal.Launch
import proofs.«174678_j51651276701955_2_alg».proof.Proof.Gen.KernelIdeal.Skeleton
import proofs.«174678_j51651276701955_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch contents after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is the entry contents and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is the entry contents and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is the entry contents and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is the entry contents and whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs and the scratch -/

/-- One staging buffer of the result's window, through which its contents are stated. -/
abbrev VO5 : View sig .tc .vmem S1x256x2048 .f32 := (Memref.whole cc0_stg5_0 : Memref sig .tc .vmem S1x256x2048 .f32).view
/-- Each window's current staging memref at point `t`, as the pipeline passes it, and its wholeness. -/
abbrev ms0 (t : Fin cfg0.N) : Memref sig .tc .vmem S1x256x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x8x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x8192 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S8192 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256x2048 .f32 := win0_5.stage (cfg0.slots t 5)
abbrev hs5 (t : Fin cfg0.N) : (ms5 t).IsWhole := hstage0_5 ((cfg0.slots t 5).cast nbuf0_5)
/-- The scratch: a whole scoped buffer of the kernel's own. -/
abbrev scM : Memref sig .tc .vmem S264x2048 .f32 := Memref.whole cc0_scratch0

/-- The region invariant: the scratch owned at some contents. -/
def PhiS (c : Dev nD) : sProp 𝕄 := iprop(∃ d, owns (c : Thread nD τ) scM fullShare d)

/-- The scoped buffers the pipeline does not stage are the scratch. -/
theorem PhiS_eq (c : Dev nD) :
    (Pipeline.scopedRest (Ix := Unit) (Name := ℕ) (U := UR sig nD τ) (Lvl := ℕ) (Val := Elt F) spec0 c : sProp 𝕄) = PhiS (F := F) c := by
  unfold PhiS; rw [scopedRest0_eq]; simp only [scM, owns_whole]; try rfl

/-! ## The body's two branches -/

/-- The first branch is taken: the tile is the first of its sequence (second grid coordinate zero). -/
abbrev condFirst (i : grid0.Coords) : Prop := (Scalar.cmpi .ne (Scalar.extui (Scalar.cmpi .eq (BitVec.ofNat 32 (i 1).val) 0#32)) 0#32) = 1#1
/-- The second branch is taken: the tile is not the first of its sequence. -/
abbrev condLater (i : grid0.Coords) : Prop := (Scalar.cmpi .ne (Scalar.extui (Scalar.cmpi .ne (BitVec.ofNat 32 (i 1).val) 0#32)) 0#32) = 1#1

/-- Over the grid of 4 × 16 points the first branch is taken at the points whose number is a multiple of 16, -/
theorem hcondFirst : ∀ t : Fin cfg0.N, condFirst (grid0.coords t) ↔ t.val % 16 = 0 :=
  (by decide +kernel : ∀ t : Fin grid0.N, condFirst (grid0.coords t) ↔ t.val % 16 = 0)
/-- and the second at all the others. -/
theorem hcondLater : ∀ t : Fin cfg0.N, condLater (grid0.coords t) ↔ ¬ t.val % 16 = 0 :=
  (by decide +kernel : ∀ t : Fin grid0.N, condLater (grid0.coords t) ↔ ¬ t.val % 16 = 0)

end Cert.KernelIdeal.Conv

end
-- ==== Proof.TileFn.lean ====
/-
  One tile of the kernel's result as a pure function of what the body loads.

  The body keeps a window of 264 rows: eight rows that precede the tile (zero at a sequence's first tile,
  the last eight rows of the tile before otherwise) followed by the tile's own 256 rows. Tap `w` reads the
  256 rows of that window that start at row `5 + w`. The block the body stores is the payload chain of the
  printed function applied to the tile, the generator's weights and those four shifted reads.
-/
import proofs.«174678_j51651276701955_2_alg».proof.Proof.Gen.KernelIdeal.Skeleton
import Idealize.ShloMosaic.Lib.ValueIdx

noncomputable section

namespace Cert.KernelIdeal.Tile

open Idealize.ShloMosaic Idealize.ShloMosaic.ValueIdx Cert.KernelIdeal Cert.KernelIdeal.Gen

variable {F : FTy → Type} [FloatOps F]

/-- The window of 264 rows: `pad` on rows 0–7, `cur` on rows 8–263. -/
def window (pad : FVec F S8x2048 .f32) (cur : FVec F S256x2048 .f32) : FVec F S264x2048 .f32 :=
  fun j => if h : (j 0).val < 8 then pad (ix2 (⟨(j 0).val, h⟩ : Fin 8) (⟨(j 1).val, idx2_lt1 j⟩ : Fin 2048))
    else cur (ix2 (⟨(j 0).val - 8, by have := idx2_lt0 j; omega⟩ : Fin 256) (⟨(j 1).val, idx2_lt1 j⟩ : Fin 2048))

/-- Rows `k` to `k + 255` of the window. -/
def rowsFrom (k : Nat) (hk : k ≤ 8) (pad : FVec F S8x2048 .f32) (cur : FVec F S256x2048 .f32) : FVec F S256x2048 .f32 :=
  fun j => window pad cur (ix2 (⟨(j 0).val + k, by have := idx2_lt0 j; omega⟩ : Fin 264) (⟨(j 1).val, idx2_lt1 j⟩ : Fin 2048))

/-- The block the body stores, from the tile `x0`, the first layer's weights `x2`, the second layer's `x3`,
    its bias `x4` and the eight preceding rows `pad`. -/
def tileOut (x0 : Vec F S1x256x2048 .f32) (x2 : Vec F S2048x256 .bf16) (x3 : Vec F S256x8192 .bf16) (x4 : Vec F S8192 .f32)
    (pad : FVec F S8x2048 .f32) : FVec F S1x256x2048 .f32 :=
  k0_pay1 (k0_pay3 x0 x2 x3 x4)
    (k0_pay7 x0 x2 x3 x4 (rowsFrom 5 (by omega) pad (k0_pay4 x0)))
    (k0_pay8 x0 x2 x3 x4 (rowsFrom 6 (by omega) pad (k0_pay4 x0)))
    (rowsFrom 7 (by omega) pad (k0_pay4 x0))
    (rowsFrom 8 (by omega) pad (k0_pay4 x0))

end Cert.KernelIdeal.Tile

end
-- ==== Proof.IdealScratch.lean ====
/-
  What a load of 256 consecutive rows of the 264-row scratch reads after the body's two stores into it.

  The body stores the eight preceding rows at row 0 and the tile at row 8; together the two rectangles
  tile the scratch, so at every row the scratch holds the window of `TileFn`: `pad` on rows 0–7 and the
  tile on rows 8–263. A load of the 256 rows from row `k` therefore reads rows `k` to `k + 255` of that window.
-/
import proofs.«174678_j51651276701955_2_alg».proof.Proof.TileFn
import Idealize.ShloMosaic.Lib.Pipeline.FrameBody
import Idealize.ShloMosaic.Lib.Pipeline.Value

noncomputable section

namespace Cert.KernelIdeal.Tile

open Idealize.ShloMosaic Idealize.ShloMosaic.ValueIdx Cert.KernelIdeal Cert.KernelIdeal.Gen

variable {F : FTy → Type} [FloatOps F]

/-- The stored eight rows are the window's rows 0–7. -/
theorem pad_piece (pad : FVec F S8x2048 .f32) (cur : FVec F S256x2048 .f32)
    (inb0 : ∀ a, (![0, 0] : Fin S264x2048.rank → Nat) a + S8x2048.size a ≤ S264x2048.size a)
    (x : (Rect.unit (s := S264x2048) ![0, 0] S8x2048.size inb0).shape.Idx) :
    pad x = window pad cur ((Rect.unit (s := S264x2048) ![0, 0] S8x2048.size inb0).emb x) := by
  have h0 : (((Rect.unit (s := S264x2048) ![0, 0] S8x2048.size inb0).emb x) 0).val = (x 0).val := by
    rw [Rect.emb_apply]; simp
  have h1 : (((Rect.unit (s := S264x2048) ![0, 0] S8x2048.size inb0).emb x) 1).val = (x 1).val := by
    rw [Rect.emb_apply]; simp
  have hx : (x 0).val < 8 := (x 0).isLt
  unfold window
  rw [dif_pos (by rw [h0]; exact hx)]
  refine congrArg pad ?_
  funext a; apply Fin.ext
  match a with
  | ⟨0, _⟩ => exact h0.symm
  | ⟨1, _⟩ => exact h1.symm

/-- The stored tile is the window's rows 8–263. -/
theorem cur_piece (pad : FVec F S8x2048 .f32) (cur : FVec F S256x2048 .f32)
    (inb8 : ∀ a, (![8, 0] : Fin S264x2048.rank → Nat) a + S256x2048.size a ≤ S264x2048.size a)
    (x : (Rect.unit (s := S264x2048) ![8, 0] S256x2048.size inb8).shape.Idx) :
    cur x = window pad cur ((Rect.unit (s := S264x2048) ![8, 0] S256x2048.size inb8).emb x) := by
  have h0 : (((Rect.unit (s := S264x2048) ![8, 0] S256x2048.size inb8).emb x) 0).val = 8 + (x 0).val := by
    rw [Rect.emb_apply]; simp
  have h1 : (((Rect.unit (s := S264x2048) ![8, 0] S256x2048.size inb8).emb x) 1).val = (x 1).val := by
    rw [Rect.emb_apply]; simp
  unfold window
  rw [dif_neg (by rw [h0]; omega)]
  refine congrArg cur ?_
  funext a; apply Fin.ext
  match a with
  | ⟨0, _⟩ => show (x 0).val = _ - 8; rw [h0]; omega
  | ⟨1, _⟩ => exact h1.symm

/-- After the two stores the scratch reads, at every index, as the window. -/
theorem canon_window (pad : FVec F S8x2048 .f32) (cur : FVec F S256x2048 .f32)
    (inb0 : ∀ a, (![0, 0] : Fin S264x2048.rank → Nat) a + S8x2048.size a ≤ S264x2048.size a)
    (inb8 : ∀ a, (![8, 0] : Fin S264x2048.rank → Nat) a + S256x2048.size a ≤ S264x2048.size a) (y : S264x2048.Idx) :
    View.canon (Val := Elt F) [(⟨Rect.unit (s := S264x2048) ![0, 0] S8x2048.size inb0, pad⟩ : View.Piece (Elt F) S264x2048 .f32),
        ⟨Rect.unit (s := S264x2048) ![8, 0] S256x2048.size inb8, cur⟩] y = window pad cur y := by
  refine View.canon_apply_of_pieces (Val := Elt F) (S := S264x2048) (e := .f32) (window pad cur) _ ?_ y ?_
  · intro p hp x
    rcases List.mem_cons.mp hp with rfl | hp
    · exact pad_piece pad cur inb0 x
    · rcases List.mem_cons.mp hp with rfl | hp
      · exact cur_piece pad cur inb8 x
      · exact absurd hp List.not_mem_nil
  · have hy0 : (y 0).val < 264 := idx2_lt0 y
    have hy1 : (y 1).val < 2048 := idx2_lt1 y
    by_cases h : (y 0).val < 8
    · refine ⟨(⟨Rect.unit (s := S264x2048) ![0, 0] S8x2048.size inb0, pad⟩ : View.Piece (Elt F) S264x2048 .f32), List.mem_cons_self, (Rect.mem_set_unit (inb := inb0)).mpr fun a => ?_⟩
      match a with
      | ⟨0, _⟩ => exact ⟨Nat.zero_le _, by show (y 0).val < 0 + 8; omega⟩
      | ⟨1, _⟩ => exact ⟨Nat.zero_le _, by show (y 1).val < 0 + 2048; omega⟩
    · refine ⟨(⟨Rect.unit (s := S264x2048) ![8, 0] S256x2048.size inb8, cur⟩ : View.Piece (Elt F) S264x2048 .f32), List.mem_cons_of_mem _ List.mem_cons_self, (Rect.mem_set_unit (inb := inb8)).mpr fun a => ?_⟩
      match a with
      | ⟨0, _⟩ => exact ⟨by show 8 ≤ (y 0).val; omega, by show (y 0).val < 8 + 256; omega⟩
      | ⟨1, _⟩ => exact ⟨Nat.zero_le _, by show (y 1).val < 0 + 2048; omega⟩

/-- A load of the 256 rows from row `k` reads rows `k` to `k + 255` of the window. -/
theorem readCov_rows {κ : Kind} {sp : Space} {sg : RefSig} (v : View sg κ sp S264x2048 .f32) (pad : FVec F S8x2048 .f32) (cur : FVec F S256x2048 .f32)
    (inb0 : ∀ a, (![0, 0] : Fin S264x2048.rank → Nat) a + S8x2048.size a ≤ S264x2048.size a)
    (inb8 : ∀ a, (![8, 0] : Fin S264x2048.rank → Nat) a + S256x2048.size a ≤ S264x2048.size a)
    (k : Nat) (hk : k ≤ 8) (inbk : ∀ a, (![k, 0] : Fin S264x2048.rank → Nat) a + S256x2048.size a ≤ S264x2048.size a) :
    v.readCov (Val := Elt F) [(⟨Rect.unit (s := S264x2048) ![0, 0] S8x2048.size inb0, pad⟩ : View.Piece (Elt F) S264x2048 .f32),
        ⟨Rect.unit (s := S264x2048) ![8, 0] S256x2048.size inb8, cur⟩]
      (Rect.unit (s := S264x2048) ![k, 0] S256x2048.size inbk).toLoadRect = rowsFrom k hk pad cur := by
  rw [View.readCov_eq_canon']
  funext j
  rw [canon_window]
  unfold rowsFrom
  refine congrArg (window pad cur) ?_
  funext a; apply Fin.ext
  match a with
  | ⟨0, _⟩ => simp [LoadRect.idx_apply, ix2]; omega
  | ⟨1, _⟩ => simp [LoadRect.idx_apply, ix2]

end Cert.KernelIdeal.Tile

end
-- ==== Proof.IdealBodyFirst.lean ====
/-
  The body at the first tile of a sequence.

  There the first branch is taken and the second is not: the eight rows before the tile are stored as
  zeros. On whole staging buffers holding the tile, the preceding rows' block, both weight matrices and the
  bias, the body runs to its end without a fault, leaves those five buffers as they were, and leaves in the
  result's buffer the tile function of `TileFn` at zero padding; the scratch ends at some contents.
-/
import proofs.«174678_j51651276701955_2_alg».proof.Proof.IdealEntry
import proofs.«174678_j51651276701955_2_alg».proof.Proof.IdealScratch

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal.Tile

theorem zeros3First : (![0, 0, 0] : Fin S1x256x2048.rank → Nat) = fun _ => 0 := by
  funext a; match a with | ⟨0, _⟩ => rfl | ⟨1, _⟩ => rfl | ⟨2, _⟩ => rfl
theorem zeros2First : (![0, 0] : Fin S2048x256.rank → Nat) = fun _ => 0 := by
  funext a; match a with | ⟨0, _⟩ => rfl | ⟨1, _⟩ => rfl
theorem zeros1First : (![0] : Fin S8192.rank → Nat) = fun _ => 0 := by
  funext a; match a with | ⟨0, _⟩ => rfl

set_option maxHeartbeats 1000000 in
/-- The body's triple in this case, on any whole memrefs. -/
theorem runFirst (c : Dev nD) (i : grid0.Coords) (arg2 : Memref sig .tc .vmem S1x256x2048 .f32) (harg2 : arg2.IsWhole) (arg3 : Memref sig .tc .vmem S1x8x2048 .f32) (harg3 : arg3.IsWhole) (arg4 : Memref sig .tc .vmem S2048x256 .bf16) (harg4 : arg4.IsWhole) (arg5 : Memref sig .tc .vmem S256x8192 .bf16) (harg5 : arg5.IsWhole) (arg6 : Memref sig .tc .vmem S8192 .f32) (harg6 : arg6.IsWhole) (arg7 : Memref sig .tc .vmem S1x256x2048 .f32) (harg7 : arg7.IsWhole) (arg8 : Memref sig .tc .vmem S264x2048 .f32) (harg8 : arg8.IsWhole)
    (hc0 : condFirst i) (hc1 : ¬condLater i)
    (x0 : Vec F S1x256x2048 .f32) (x1 : Vec F S1x8x2048 .f32) (x2 : Vec F S2048x256 .bf16) (x3 : Vec F S256x8192 .bf16) (x4 : Vec F S8192 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (tileOut x0 x2 x3 x4 (k0_pay5 (F := F))) ∗ (∃ d, owns (c : Thread nD τ) arg8 fullShare d)) -∗ K ⟨⟩))
      ⊢ wp frame (wpE (defs₀ (F := F)) Variants.none c none) E (cc0__kernel i arg2 harg2 arg3 harg3 arg4 harg4 arg5 harg5 arg6 harg6 arg7 harg7 arg8 harg8) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    sl_unfold_run_names
    rw [View.read_writes_eq_canon _ _ _ (fun y => ⟨_, List.mem_singleton_self _, View.mem_set_unit_zero zeros3First inb_S1x256x2048_S1x256x2048_0_0_0 y⟩),
      View.canon_unit_zero zeros3First]
    simp only [View.readAt_eq_ld, harg2.read_unread, harg3.read_unread, harg4.read_unread, harg5.read_unread, harg6.read_unread,
      View.ld_unit_zero (S := S1x256x2048) zeros3First, View.ld_unit_zero (S := S1x8x2048) zeros3First,
      View.ld_unit_zero (S := S2048x256) zeros2First, View.ld_unit_zero (S := S256x8192) zeros2First,
      View.ld_unit_zero (S := S8192) zeros1First]
    unfold tileOut
    rw [readCov_rows _ _ _ _ _ 5 (by omega), readCov_rows _ _ _ _ _ 6 (by omega), readCov_rows _ _ _ _ _ 7 (by omega),
      readCov_rows _ _ _ _ _ 8 (by omega)]
  iexists _, _; isplitr; swap; · iexact HS
  ipureintro; rfl

end Cert.KernelIdeal.Conv

end
-- ==== Proof.IdealBodyLater.lean ====
/-
  The body at a tile that is not the first of its sequence.

  There the second branch is taken and the first is not: the eight rows before the tile are copied from
  the window that stages the previous tile's last eight rows. On whole staging buffers holding the tile,
  those eight rows, both weight matrices and the bias, the body runs to its end without a fault, leaves
  those five buffers as they were, and leaves in the result's buffer the tile function of `TileFn` at that
  padding; the scratch ends at some contents.
-/
import proofs.«174678_j51651276701955_2_alg».proof.Proof.IdealEntry
import proofs.«174678_j51651276701955_2_alg».proof.Proof.IdealScratch

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal.Tile

theorem zeros3Later : (![0, 0, 0] : Fin S1x256x2048.rank → Nat) = fun _ => 0 := by
  funext a; match a with | ⟨0, _⟩ => rfl | ⟨1, _⟩ => rfl | ⟨2, _⟩ => rfl
theorem zeros2Later : (![0, 0] : Fin S2048x256.rank → Nat) = fun _ => 0 := by
  funext a; match a with | ⟨0, _⟩ => rfl | ⟨1, _⟩ => rfl
theorem zeros1Later : (![0] : Fin S8192.rank → Nat) = fun _ => 0 := by
  funext a; match a with | ⟨0, _⟩ => rfl

set_option maxHeartbeats 1000000 in
/-- The body's triple in this case, on any whole memrefs. -/
theorem runLater (c : Dev nD) (i : grid0.Coords) (arg2 : Memref sig .tc .vmem S1x256x2048 .f32) (harg2 : arg2.IsWhole) (arg3 : Memref sig .tc .vmem S1x8x2048 .f32) (harg3 : arg3.IsWhole) (arg4 : Memref sig .tc .vmem S2048x256 .bf16) (harg4 : arg4.IsWhole) (arg5 : Memref sig .tc .vmem S256x8192 .bf16) (harg5 : arg5.IsWhole) (arg6 : Memref sig .tc .vmem S8192 .f32) (harg6 : arg6.IsWhole) (arg7 : Memref sig .tc .vmem S1x256x2048 .f32) (harg7 : arg7.IsWhole) (arg8 : Memref sig .tc .vmem S264x2048 .f32) (harg8 : arg8.IsWhole)
    (hc0 : ¬condFirst i) (hc1 : condLater i)
    (x0 : Vec F S1x256x2048 .f32) (x1 : Vec F S1x8x2048 .f32) (x2 : Vec F S2048x256 .bf16) (x3 : Vec F S256x8192 .bf16) (x4 : Vec F S8192 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (tileOut x0 x2 x3 x4 (k0_pay6 x1)) ∗ (∃ d, owns (c : Thread nD τ) arg8 fullShare d)) -∗ K ⟨⟩))
      ⊢ wp frame (wpE (defs₀ (F := F)) Variants.none c none) E (cc0__kernel i arg2 harg2 arg3 harg3 arg4 harg4 arg5 harg5 arg6 harg6 arg7 harg7 arg8 harg8) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    sl_unfold_run_names
    rw [View.read_writes_eq_canon _ _ _ (fun y => ⟨_, List.mem_singleton_self _, View.mem_set_unit_zero zeros3Later inb_S1x256x2048_S1x256x2048_0_0_0 y⟩),
      View.canon_unit_zero zeros3Later]
    simp only [View.readAt_eq_ld, harg2.read_unread, harg3.read_unread, harg4.read_unread, harg5.read_unread, harg6.read_unread,
      View.ld_unit_zero (S := S1x256x2048) zeros3Later, View.ld_unit_zero (S := S1x8x2048) zeros3Later,
      View.ld_unit_zero (S := S2048x256) zeros2Later, View.ld_unit_zero (S := S256x8192) zeros2Later,
      View.ld_unit_zero (S := S8192) zeros1Later]
    unfold tileOut
    rw [readCov_rows _ _ _ _ _ 5 (by omega), readCov_rows _ _ _ _ _ 6 (by omega), readCov_rows _ _ _ _ _ 7 (by omega),
      readCov_rows _ _ _ _ _ 8 (by omega)]
  iexists _, _; isplitr; swap; · iexact HS
  ipureintro; rfl

end Cert.KernelIdeal.Conv

end
-- ==== Proof.IdealPoints.lean ====
/-
  The pipeline's proof data and the body obligation at every grid point.

  After the body at point `t` every input window's buffer still holds its block, and the result's buffer
  holds the tile function of `TileFn`: at zero padding when `t` is the first tile of its sequence (its number
  a multiple of 16), at the previous tile's last eight rows otherwise. The array `x` is read through two
  windows, which hold its left and its right half share. The body obligation is the body's triple of the
  point's case; the invariant hands the body the scratch at some contents and takes it back at some contents.
-/
import proofs.«174678_j51651276701955_2_alg».proof.Proof.IdealBodyFirst
import proofs.«174678_j51651276701955_2_alg».proof.Proof.IdealBodyLater

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal.Tile

/-- What the result's staging buffer holds after the body at point `t`. -/
def outAt (c : Dev nD) (t : Fin cfg0.N) : Vec F S1x256x2048 .f32 :=
  if t.val % 16 = 0 then tileOut (iblk m c 0 t) (iblk m c 2 t) (iblk m c 3 t) (iblk m c 4 t) (k0_pay5 (F := F))
  else tileOut (iblk m c 0 t) (iblk m c 2 t) (iblk m c 3 t) (iblk m c 4 t) (k0_pay6 (iblk m c 1 t))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := PhiS c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

/-- The proof data's arrays are the region-entry contents. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

/-- The body at any point, by the point's case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  rw [show (dats m 0 c).Φ t.castSucc = PhiS c from rfl]
  unfold PhiS outAt
  by_cases h : t.val % 16 = 0
  · rw [if_pos h]
    iintro ⟨HS, Ho, ⟨%d0, H0⟩, ⟨%d1, H1⟩, ⟨%d2, H2⟩, ⟨%d3, H3⟩, ⟨%d4, H4⟩, ⟨%d5, H5⟩⟩
    iapply (runFirst c (grid0.coords t) _ _ _ _ _ _ _ _ _ _ _ _ _ _ ((hcondFirst t).mpr h) (fun hl => ((hcondLater t).mp hl) h)
      (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    iexact H5
  · rw [if_neg h]
    iintro ⟨HS, Ho, ⟨%d0, H0⟩, ⟨%d1, H1⟩, ⟨%d2, H2⟩, ⟨%d3, H3⟩, ⟨%d4, H4⟩, ⟨%d5, H5⟩⟩
    iapply (runLater c (grid0.coords t) _ _ _ _ _ _ _ _ _ _ _ _ _ _ (fun hf => h ((hcondFirst t).mp hf)) ((hcondLater t).mpr h)
      (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Conv

end
-- ==== Proof.IdealLaunch.lean ====
/-
  The region launched, and the frame.

  The five distinct buffers behind the six windows — `x` (read through two windows), the two rounded weight
  matrices, the re-laid bias and the result — are held whole at the full share when the region is entered.
  The full share of `x` splits into its left and right halves, one per window; the others go to their one
  window whole. With the body obligation this gives the run of the whole program: it terminates without a
  fault, every window's array ends at what the write-backs make of it, and every other unscoped buffer is
  as the region found it. The four argument arrays are among those and the host operations before the
  region write none of them: they end as launched.
-/
import proofs.«174678_j51651276701955_2_alg».proof.Proof.IdealPoints
import proofs.«174678_j51651276701955_2_alg».proof.Proof.LibSharedFrame

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The share each window holds of its array: the two windows on `x` its two halves, the others all of theirs. -/
theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl
theorem share5 (c : Dev nD) : (dats m 0 c).share 5 = fullShare := rfl

/-- The windows' arrays at any contents, window by window, at the shares the proof data name. -/
theorem arrays_list (c : Dev nD) (Fn : (w : Fin cfg0.W) → Buf (Elt F) ((cfg0.win w).arr.view.loc (c.tc : Thread nD τ))) :
    ((dats m 0 c).arrays Fn : sProp 𝕄)
      = iprop(((cfg0.win 0).arr.view.loc (c.tc : Thread nD τ) ↦{fullShare.left} Fn 0)
          ∗ ((cfg0.win 1).arr.view.loc (c.tc : Thread nD τ) ↦{fullShare.right} Fn 1)
          ∗ ((cfg0.win 2).arr.view.loc (c.tc : Thread nD τ) ↦{fullShare} Fn 2)
          ∗ ((cfg0.win 3).arr.view.loc (c.tc : Thread nD τ) ↦{fullShare} Fn 3)
          ∗ ((cfg0.win 4).arr.view.loc (c.tc : Thread nD τ) ↦{fullShare} Fn 4)
          ∗ ((cfg0.win 5).arr.view.loc (c.tc : Thread nD τ) ↦{fullShare} Fn 5)) := by
  have h0 : (cfg0.win 0).arr.IsWhole := arr_whole0 0
  have h1 : (cfg0.win 1).arr.IsWhole := arr_whole0 1
  have h2 : (cfg0.win 2).arr.IsWhole := arr_whole0 2
  have h3 : (cfg0.win 3).arr.IsWhole := arr_whole0 3
  have h4 : (cfg0.win 4).arr.IsWhole := arr_whole0 4
  have h5 : (cfg0.win 5).arr.IsWhole := arr_whole0 5
  unfold Dat.arrays
  rw [bigSep_W0, h0.set_eq_univ, h2.set_eq_univ, h3.set_eq_univ, h4.set_eq_univ, h5.set_eq_univ,
    share0, share1, share2, share3, share4, share5]

/-- The distinct buffers behind the windows' arrays, one by one, at any contents. -/
theorem arrBufs_list (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_arg0) ↦{fullShare} W main_arg0)
          ∗ (((c.tc : Thread nD τ).loc main_call0_v6) ↦{fullShare} W main_call0_v6)
          ∗ (((c.tc : Thread nD τ).loc main_call0_v7) ↦{fullShare} W main_call0_v7)
          ∗ (((c.tc : Thread nD τ).loc main_call0_v5) ↦{fullShare} W main_call0_v5)
          ∗ (((c.tc : Thread nD τ).loc main_v0) ↦{fullShare} W main_v0)) := by
  unfold Pipeline.arrBufs
  rw [bigSep_eq_bigSepL_of_eq [main_arg0, main_call0_v6, main_call0_v7, main_call0_v5, main_v0] (by decide) (by decide)]
  rfl

/-- The full share of `x` dealt to its two windows; every other array to its one window: for any contents `W`
    of the buffers and any family `Fn` that reads them window by window. -/
theorem split_of (c : Dev nD) (W : (b : Ref sig .tc) → Buf (Elt F) ((c.tc : Thread nD τ).loc b))
    (Fn : (w : Fin cfg0.W) → Buf (Elt F) ((cfg0.win w).arr.view.loc (c.tc : Thread nD τ)))
    (hF : ∀ w, Fn w = W (Pipeline.arrRef spec0 w)) :
    (Pipeline.arrBufs (Ix := Unit) (Name := ℕ) (U := UR sig nD τ) (Lvl := ℕ) spec0 c W : sProp 𝕄) ⊢ (dats m 0 c).arrays Fn := by
  rw [arrays_list, arrBufs_list, hF 0, hF 1, hF 2, hF 3, hF 4, hF 5]
  iintro ⟨Hx, H6, H7, H5, Ho⟩
  ihave Hx' := (pointsTo_share (PosShare.mem_left_op_right fullShare)).1 $$ Hx
  icases Hx' with ⟨Hl, Hr⟩
  isplitl [Hl]; · iexact Hl
  isplitl [Hr]; · iexact Hr
  isplitl [H6]; · iexact H6
  isplitl [H7]; · iexact H7
  isplitl [H5]; · iexact H5
  iexact Ho

/-- At the region's entry. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) :=
  split_of m c (V m c) _ (fun w => A_eq m c w)

set_option backward.isDefEq.respectTransparency.types false in
/-- Every weakly fair execution of the program terminates without a fault; every window's array ends at
    what the proof data compute and every other unscoped buffer as the region found it. -/
theorem run_main : θ_run defs (onTc (τ := τ) (main (F := F))) (s₀ m ρ) (Pipeline.FramePost cfgs (dats m) 0 (V m)) :=
  Cert.LibSharedFrame.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m)
    (hin := fun c => by rw [PhiS_eq]; exact .rfl)
    (hout := fun c => by rw [PhiS_eq]; exact .rfl)

/-- In a final state of that run the four argument arrays are as launched. -/
theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩

/-- The four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => args_kept m r h c) (run_main m ρ)

end Cert.KernelIdeal.Conv

end
-- ==== Proof.IdealBlocks.lean ====
/-
  The windows' blocks read at a coordinate.

  Point `t` of the grid of 4 × 16 points has batch row `t / 16` and tile `t % 16`. The printed index maps,
  decided once over the grid: the tile's window and the result's window sit at block `(t / 16, t % 16, 0)` of
  blocks of 256 rows; the window of the eight rows before the tile sits at block `(t / 16, 32 (t % 16) - 1, 0)`
  of blocks of 8 rows (natural subtraction: block 0 at the first tile); the two weight matrices and the bias are
  their arrays whole. A block's element sits in its array, on each axis, at the block index times the block's
  size plus its own coordinate; so each staged block, read at a coordinate, is the array as the region finds it,
  read at the corresponding coordinate.
-/
import proofs.«174678_j51651276701955_2_alg».proof.Proof.IdealEntry
import Idealize.ShloMosaic.Lib.Pipeline.Value
import Idealize.ShloMosaic.Lib.ValueIdx

set_option maxRecDepth 16384

noncomputable section

namespace Cert.KernelIdeal.Conv

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The printed index maps in closed form, decided over the 64 grid points. -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = 32 * (t.val % 16) - 1 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 3) = t.val / 16 ∧ win0_5.index t (1 : Fin 3) = t.val % 16 ∧ win0_5.index t (2 : Fin 3) = 0 :=
  (by decide +kernel : ∀ t : Fin grid0.N, _)

/-- A grid point's number is below 64. -/
theorem t_lt (t : Fin cfg0.N) : t.val < 64 := lt_of_lt_of_eq t.isLt N_0

/-- The tile's block at `(0, r, d)` is the input at batch row `t / 16`, step `256 (t % 16) + r`, channel `d`. -/
theorem iblk0_apply (c : Dev nD) (t : Fin cfg0.N) (r : Fin 256) (d : Fin 2048) :
    (iblk m c 0 t : Vec F S1x256x2048 .f32) (ix3 (0 : Fin 1) r d)
      = (V m c main_arg0 : S4x4096x2048.Idx → Elt F .f32)
          (ix3 (⟨t.val / 16, by have := t_lt t; omega⟩ : Fin 4)
            (⟨256 * (t.val % 16) + r.val, by have := r.isLt; omega⟩ : Fin 4096) d) := by
  obtain ⟨e0, e1, e2, -⟩ := idx_facts t
  unfold iblk
  rw [View.read_apply]
  show V m c main_arg0 _ = V m c main_arg0 _
  refine congrArg (V m c main_arg0) ?_
  funext a
  apply Fin.ext
  match a with
  | ⟨0, _⟩ => show win0_0.index t (0 : Fin 3) * 1 + 1 * 0 = t.val / 16; rw [e0]; omega
  | ⟨1, _⟩ => show win0_0.index t (1 : Fin 3) * 256 + 1 * r.val = 256 * (t.val % 16) + r.val; rw [e1]; omega
  | ⟨2, _⟩ => show win0_0.index t (2 : Fin 3) * 2048 + 1 * d.val = d.val; rw [e2]; omega

/-- The block of the eight rows before the tile, at a tile that is not the first of its sequence, at `(0, s, d)`
    is the input at step `256 (t % 16) + s - 8`. -/
theorem iblk1_apply (c : Dev nD) (t : Fin cfg0.N) (ht : ¬ t.val % 16 = 0) (s : Fin 8) (d : Fin 2048) :
    (iblk m c 1 t : Vec F S1x8x2048 .f32) (ix3 (0 : Fin 1) s d)
      = (V m c main_arg0 : S4x4096x2048.Idx → Elt F .f32)
          (ix3 (⟨t.val / 16, by have := t_lt t; omega⟩ : Fin 4)
            (⟨256 * (t.val % 16) + s.val - 8, by have := s.isLt; omega⟩ : Fin 4096) d) := by
  obtain ⟨-, -, -, e0, e1, e2, -⟩ := idx_facts t
  have hs := s.isLt
  unfold iblk
  rw [View.read_apply]
  show V m c main_arg0 _ = V m c main_arg0 _
  refine congrArg (V m c main_arg0) ?_
  funext a
  apply Fin.ext
  match a with
  | ⟨0, _⟩ => show win0_1.index t (0 : Fin 3) * 1 + 1 * 0 = t.val / 16; rw [e0]; omega
  | ⟨1, _⟩ => show win0_1.index t (1 : Fin 3) * 8 + 1 * s.val = 256 * (t.val % 16) + s.val - 8; rw [e1]; omega
  | ⟨2, _⟩ => show win0_1.index t (2 : Fin 3) * 2048 + 1 * d.val = d.val; rw [e2]; omega

/-- The first weight matrix's window is its array whole. -/
theorem iblk2_apply (c : Dev nD) (t : Fin cfg0.N) (k : Fin 2048) (j : Fin 256) :
    (iblk m c 2 t : Vec F S2048x256 .bf16) (ix2 k j) = (V m c main_call0_v6 : S2048x256.Idx → Elt F .bf16) (ix2 k j) := by
  obtain ⟨-, -, -, -, -, -, e0, e1, -⟩ := idx_facts t
  unfold iblk
  rw [View.read_apply]
  show V m c main_call0_v6 _ = V m c main_call0_v6 _
  refine congrArg (V m c main_call0_v6) ?_
  funext a
  apply Fin.ext
  match a with
  | ⟨0, _⟩ => show win0_2.index t (0 : Fin 2) * 2048 + 1 * k.val = k.val; rw [e0]; omega
  | ⟨1, _⟩ => show win0_2.index t (1 : Fin 2) * 256 + 1 * j.val = j.val; rw [e1]; omega

/-- The second weight matrix's window is its array whole. -/
theorem iblk3_apply (c : Dev nD) (t : Fin cfg0.N) (j : Fin 256) (q : Fin 8192) :
    (iblk m c 3 t : Vec F S256x8192 .bf16) (ix2 j q) = (V m c main_call0_v7 : S256x8192.Idx → Elt F .bf16) (ix2 j q) := by
  obtain ⟨-, -, -, -, -, -, -, -, e0, e1, -⟩ := idx_facts t
  unfold iblk
  rw [View.read_apply]
  show V m c main_call0_v7 _ = V m c main_call0_v7 _
  refine congrArg (V m c main_call0_v7) ?_
  funext a
  apply Fin.ext
  match a with
  | ⟨0, _⟩ => show win0_3.index t (0 : Fin 2) * 256 + 1 * j.val = j.val; rw [e0]; omega
  | ⟨1, _⟩ => show win0_3.index t (1 : Fin 2) * 8192 + 1 * q.val = q.val; rw [e1]; omega

/-- The bias's window is its array whole. -/
theorem iblk4_apply (c : Dev nD) (t : Fin cfg0.N) (q : Fin 8192) :
    (iblk m c 4 t : Vec F S8192 .f32) (ix1 q) = (V m c main_call0_v5 : S8192.Idx → Elt F .f32) (ix1 q) := by
  obtain ⟨-, -, -, -, -, -, -, -, -, -, e0, -⟩ := idx_facts t
  unfold iblk
  rw [View.read_apply]
  show V m c main_call0_v5 _ = V m c main_call0_v5 _
  refine congrArg (V m c main_call0_v5) ?_
  funext a
  apply Fin.ext
  match a with
  | ⟨0, _⟩ => show win0_4.index t (0 : Fin 1) * 8192 + 1 * q.val = q.val; rw [e0]; omega

end Cert.KernelIdeal.Conv

end
-- ==== Proof.IdealHostPrefix.lean ====
/-
  What the region finds in the three arrays the host operations prepare before it.

  The first layer's weights are only rounded, which is the identity on extended reals: the region finds
  them as launched. The second layer's weights, a [256, 8192] matrix whose column 4*d + w holds tap w of
  channel d, are regrouped as [256, 2048, 4], the last two axes exchanged, flattened back and rounded: the
  region finds, in column 2048*w + d, the launched column 4*d + w. The bias is re-laid the same way:
  entry 2048*w + d is the launched entry 4*d + w. A reshape keeps the row-major position, so each of
  these is two equalities of positions, closed by linear arithmetic.
-/
import proofs.«174678_j51651276701955_2_alg».proof.Proof.IdealEntry
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Conv

open Cert.KernelIdeal Cert.KernelIdeal.Gen
open Idealize.ShloMosaic Idealize.ShloMosaic.TcCoe Idealize.ShloMosaic.ValueIdx

/-! ## The two re-layouts read at an index -/

/-- A [256, 8192] matrix regrouped as [256, 2048, 4], its last two axes exchanged, and flattened back reads, at
    column 2048*w + d, the operand's column 4*d + w: both reshapes keep the row-major position,
    (j*4 + w)*2048 + d = j*8192 + (2048*w + d) and j*8192 + (4*d + w) = (j*2048 + d)*4 + w. -/
theorem relayout2_apply (x : S256x8192.Idx → EReal) (j : Fin 256) (w : Fin 4) (d : Fin 2048) :
    shapeCast S256x8192
        (transpose S256x4x2048 [0, 2, 1] (shapeCast S256x2048x4 x shapeCasts_S256x8192_S256x2048x4)
          transposes_S256x2048x4_S256x4x2048_0_2_1)
        shapeCasts_S256x4x2048_S256x8192 (ix2 j (⟨2048 * w.val + d.val, by omega⟩ : Fin 8192))
      = x (ix2 j (⟨4 * d.val + w.val, by omega⟩ : Fin 8192)) := by
  refine (shapeCast_apply _ shapeCasts_S256x4x2048_S256x8192 _ (ix3 j w d) ?_).trans ?_
  · rw [Shape.rowMajor_val_three, Shape.rowMajor_val_two]
    show (j.val * 4 + w.val) * 2048 + d.val = j.val * 8192 + (2048 * w.val + d.val)
    omega
  refine (transpose_ix3_021_apply _ transposes_S256x2048x4_S256x4x2048_0_2_1 j w d).trans ?_
  refine shapeCast_apply x shapeCasts_S256x8192_S256x2048x4 _ _ ?_
  rw [Shape.rowMajor_val_three, Shape.rowMajor_val_two]
  show j.val * 8192 + (4 * d.val + w.val) = (j.val * 2048 + d.val) * 4 + w.val
  omega

/-- A vector of 8192 regrouped as [2048, 4], transposed, and flattened back reads, at 2048*w + d, the operand at
    4*d + w. -/
theorem relayout1_apply (x : S8192.Idx → EReal) (w : Fin 4) (d : Fin 2048) :
    shapeCast S8192
        (transpose S4x2048 [1, 0] (shapeCast S2048x4 x shapeCasts_S8192_S2048x4) transposes_S2048x4_S4x2048_1_0)
        shapeCasts_S4x2048_S8192 (ix1 (⟨2048 * w.val + d.val, by omega⟩ : Fin 8192))
      = x (ix1 (⟨4 * d.val + w.val, by omega⟩ : Fin 8192)) := by
  refine (shapeCast_apply _ shapeCasts_S4x2048_S8192 _ (ix2 w d) ?_).trans ?_
  · rw [Shape.rowMajor_val_two, Shape.rowMajor_val_one]
    show w.val * 2048 + d.val = 2048 * w.val + d.val
    omega
  refine (transpose_ix2_apply _ transposes_S2048x4_S4x2048_1_0 w d).trans ?_
  refine shapeCast_apply x shapeCasts_S8192_S2048x4 _ _ ?_
  rw [Shape.rowMajor_val_two, Shape.rowMajor_val_one]
  show 4 * d.val + w.val = d.val * 4 + w.val
  omega

/-! ## The three arrays as the region finds them -/

variable (m : (ℓ : Loc nD τ sig) → Buf (Elt Ideal) ℓ)

/-- The first layer's weights when the region is entered: the launched ones, rounded. -/
theorem V_w1_eq (c : Dev nD) :
    @Eq (S2048x256.Idx → EReal) (V m c main_call0_v6)
      (truncf (F := Ideal) (s := S2048x256) (φ := .f32) .bf16 (m ((c : Thread nD τ).loc main_arg1)) bitsLt_bf16_f32) := by
  dsimp only [V, hostOps0]; after_results; rfl

/-- The second layer's weights when the region is entered: the launched ones regrouped, their last two axes
    exchanged, flattened back and rounded. -/
theorem V_w2_eq (c : Dev nD) :
    @Eq (S256x8192.Idx → EReal) (V m c main_call0_v7)
      (truncf (F := Ideal) (s := S256x8192) (φ := .f32) .bf16
        (shapeCast S256x8192
          (transpose S256x4x2048 [0, 2, 1]
            (shapeCast S256x2048x4 (m ((c : Thread nD τ).loc main_arg2) : S256x8192.Idx → EReal) shapeCasts_S256x8192_S256x2048x4)
            transposes_S256x2048x4_S256x4x2048_0_2_1)
          shapeCasts_S256x4x2048_S256x8192)
        bitsLt_bf16_f32) := by
  dsimp only [V, hostOps0]; after_results; rfl

/-- The bias when the region is entered: the launched one regrouped, transposed and flattened back. -/
theorem V_b2_eq (c : Dev nD) :
    @Eq (S8192.Idx → EReal) (V m c main_call0_v5)
      (shapeCast S8192
        (transpose S4x2048 [1, 0]
          (shapeCast S2048x4 (m ((c : Thread nD τ).loc main_arg3) : S8192.Idx → EReal) shapeCasts_S8192_S2048x4)
          transposes_S2048x4_S4x2048_1_0)
        shapeCasts_S4x2048_S8192) := by
  dsimp only [V, hostOps0]; after_results; rfl

/-- The region finds the first layer's weights as launched (rounding is the identity on extended reals). -/
theorem entry_w1 (c : Dev nD) (k : Fin 2048) (j : Fin 256) :
    (V m c main_call0_v6 : S2048x256.Idx → EReal) (ix2 k j)
      = (m ((c : Thread nD τ).loc main_arg1) : S2048x256.Idx → EReal) (ix2 k j) :=
  (congrFun (V_w1_eq m c) (ix2 k j)).trans (truncf_apply _ _ _)

/-- The region finds, in column 2048*w + d of the second layer's weights, the launched column 4*d + w. -/
theorem entry_w2 (c : Dev nD) (j : Fin 256) (w : Fin 4) (d : Fin 2048) :
    (V m c main_call0_v7 : S256x8192.Idx → EReal) (ix2 j (⟨2048 * w.val + d.val, by omega⟩ : Fin 8192))
      = (m ((c : Thread nD τ).loc main_arg2) : S256x8192.Idx → EReal) (ix2 j (⟨4 * d.val + w.val, by omega⟩ : Fin 8192)) :=
  ((congrFun (V_w2_eq m c) _).trans (truncf_apply _ _ _)).trans (relayout2_apply _ j w d)

/-- The region finds, at entry 2048*w + d of the bias, the launched entry 4*d + w. -/
theorem entry_b2 (c : Dev nD) (w : Fin 4) (d : Fin 2048) :
    (V m c main_call0_v5 : S8192.Idx → EReal) (ix1 (⟨2048 * w.val + d.val, by omega⟩ : Fin 8192))
      = (m ((c : Thread nD τ).loc main_arg3) : S8192.Idx → EReal) (ix1 (⟨4 * d.val + w.val, by omega⟩ : Fin 8192)) :=
  (congrFun (V_b2_eq m c) _).trans (relayout1_apply _ w d)

end Cert.KernelIdeal.Conv

end
-- ==== Proof.TileMatmul.lean ====
/-
  A plain matrix product with a zero accumulator, read at an index at the ideal values: the sum over the
  contracted coordinate of the products of the two operands' entries.
-/
import Idealize.ShloMosaic.PureOps.Ideal.Laws
import Idealize.ShloMosaic.Lib.ValueIdx

noncomputable section

namespace Cert.KernelIdeal.Tile

open Idealize.ShloMosaic Idealize.ShloMosaic.ValueIdx

/-- An `m × k` by `k × n` product (dimension numbers `[1], [0], [0], [1]`, no batch axis) into the zero
    splat reads, at `(a, b)`, `∑ c, A (a, c) * B (c, b)`. -/
theorem matmul_plain_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant (⟨2, ![m, n]⟩ : Shape) .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.KernelIdeal.Tile

end
-- ==== Proof.Spec.lean ====
/-
  The dynamic short convolution, as one function of its argument arrays over the extended reals.

  For a batch `b`, a time step `t` and a channel `d`:
  * the generator's hidden unit `j` is `silu (∑ k, x[b,t,k] · A[k,j])`;
  * the generated tap coefficient `w` (of four) of channel `d` is `∑ j, silu(hidden j) · K[j,w,d] + C[w,d]`;
  * tap `w` reads the input `3 - w` steps back, `x[b, t + w - 3, d]`, and reads zero before the sequence starts;
  * the result is `silu` of the four products summed from zero, in the order of the taps.
  The coefficient tables `A`, `K`, `C` are taken as functions of their coordinates, so that a program that
  stores the second layer's weights tap-major and one that stores them channel-major are both this function.
-/
import Idealize.ShloMosaic.PureOps.Ideal
import Idealize.ShloMosaic.Lib.ValueIdx

noncomputable section

namespace Cert.DynConv

open Idealize.ShloMosaic Idealize.ShloMosaic.ValueIdx

/-- The input's and the result's index type: batch, time, channel. -/
abbrev XIdx : Type := (⟨3, ![4, 4096, 2048]⟩ : Shape).Idx

/-- `silu z = z · logistic z`. -/
def act (z : EReal) : EReal := z * Ideal.logistic z

/-- The generator's first layer before its activation. -/
def hid (X : XIdx → EReal) (A : Fin 2048 → Fin 256 → EReal) (b : Fin 4) (t : Fin 4096) (j : Fin 256) : EReal :=
  ∑ k : Fin 2048, X (ix3 b t k) * A k j

/-- The generated coefficient of tap `w` and channel `d` at step `t`. -/
def coef (X : XIdx → EReal) (A : Fin 2048 → Fin 256 → EReal) (K : Fin 256 → Fin 4 → Fin 2048 → EReal)
    (C : Fin 4 → Fin 2048 → EReal) (b : Fin 4) (t : Fin 4096) (w : Fin 4) (d : Fin 2048) : EReal :=
  (∑ j : Fin 256, act (hid X A b t j) * K j w d) + C w d

/-- What tap `w` reads at step `t`: the input `3 - w` steps earlier, zero before the first step. -/
def tap (X : XIdx → EReal) (b : Fin 4) (t : Fin 4096) (w : Fin 4) (d : Fin 2048) : EReal :=
  if h : 3 ≤ t.val + w.val then X (ix3 b ⟨t.val + w.val - 3, by omega⟩ d) else 0

/-- The four taps' products summed from zero, tap 0 first. -/
def conv (X : XIdx → EReal) (A : Fin 2048 → Fin 256 → EReal) (K : Fin 256 → Fin 4 → Fin 2048 → EReal)
    (C : Fin 4 → Fin 2048 → EReal) (b : Fin 4) (t : Fin 4096) (d : Fin 2048) : EReal :=
  (((0 + coef X A K C b t 0 d * tap X b t 0 d) + coef X A K C b t 1 d * tap X b t 1 d)
      + coef X A K C b t 2 d * tap X b t 2 d) + coef X A K C b t 3 d * tap X b t 3 d

/-- The result at `(b, t, d)`. -/
def out (X : XIdx → EReal) (A : Fin 2048 → Fin 256 → EReal) (K : Fin 256 → Fin 4 → Fin 2048 → EReal)
    (C : Fin 4 → Fin 2048 → EReal) (b : Fin 4) (t : Fin 4096) (d : Fin 2048) : EReal :=
  act (conv X A K C b t d)

/-- The result as an array. -/
def outArr (X : XIdx → EReal) (A : Fin 2048 → Fin 256 → EReal) (K : Fin 256 → Fin 4 → Fin 2048 → EReal)
    (C : Fin 4 → Fin 2048 → EReal) : XIdx → EReal :=
  fun i => out X A K C (i 0) (i 1) (i 2)

theorem outArr_ix3 (X : XIdx → EReal) (A : Fin 2048 → Fin 256 → EReal) (K : Fin 256 → Fin 4 → Fin 2048 → EReal)
    (C : Fin 4 → Fin 2048 → EReal) (b : Fin 4) (t : Fin 4096) (d : Fin 2048) :
    outArr X A K C (ix3 b t d) = out X A K C b t d := rfl

end Cert.DynConv

end
-- ==== Proof.TileCoef.lean ====
/-
  The generator's two layers as the body computes them, read at an index: the hidden layer's pre-activation
  is the tile row times the first weight matrix, and the generated coefficients are the activated hidden
  row times the second weight matrix plus the bias.
-/
import proofs.«174678_j51651276701955_2_alg».proof.Proof.TileMatmul
import proofs.«174678_j51651276701955_2_alg».proof.Proof.Spec
import proofs.«174678_j51651276701955_2_alg».proof.Proof.Gen.KernelIdeal.Skeleton
import Idealize.ShloMosaic.Lib.ValueLayout

noncomputable section

namespace Cert.KernelIdeal.Tile

open Idealize.ShloMosaic Idealize.ShloMosaic.ValueIdx Cert.KernelIdeal Cert.KernelIdeal.Gen

/-- The tile with its unit axis dropped reads the tile at `(0, r, k)`. -/
theorem pay2_apply (x0 : Vec Ideal S1x256x2048 .f32) (r : Fin 256) (k : Fin 2048) :
    k0_pay2 (F := Ideal) x0 (ix2 r k) = x0 (ix3 (0 : Fin 1) r k) := by
  unfold k0_pay2
  exact shapeCast_1ab_ab_apply x0 _ r k

/-- The rows the body writes into the window are the tile's rows. -/
theorem pay4_apply (x0 : Vec Ideal S1x256x2048 .f32) (r : Fin 256) (k : Fin 2048) :
    k0_pay4 (F := Ideal) x0 (ix2 r k) = x0 (ix3 (0 : Fin 1) r k) := by
  unfold k0_pay4
  rw [shapeCast_self]
  exact pay2_apply x0 r k

/-- The generated coefficients at row `r` and column `c` of the tap-major layout. -/
theorem pay3_apply (x0 : Vec Ideal S1x256x2048 .f32) (x2 : Vec Ideal S2048x256 .bf16) (x3 : Vec Ideal S256x8192 .bf16)
    (x4 : Vec Ideal S8192 .f32) (r : Fin 256) (c : Fin 8192) :
    k0_pay3 (F := Ideal) x0 x2 x3 x4 (ix2 r c)
      = (∑ j : Fin 256, Cert.DynConv.act (∑ k : Fin 2048, x0 (ix3 (0 : Fin 1) r k) * x2 (ix2 k j)) * x3 (ix2 j c))
        + x4 (ix1 c) := by
  unfold k0_pay3
  simp only [shapeCast_self]
  refine (addf_apply _ _ _).trans ?_
  refine congrArg₂ (· + ·) ?_ ?_
  · refine (matmul_plain_zero_apply (φ₁ := .bf16) (φ₂ := .bf16) dot_S256x256_S256x8192_S256x8192_1_0_0_1_n_n_wf none _ _ r c).trans ?_
    refine Finset.sum_congr rfl fun j _ => ?_
    refine congrArg (· * x3 (ix2 j c)) ?_
    have hpre : matmul (φ₁ := .bf16) (φ₂ := .bf16) dot_S256x2048_S2048x256_S256x256_1_0_0_1_n_n none
          (truncf .bf16 (k0_pay2 (F := Ideal) x0) bitsLt_bf16_f32) x2 (constant S256x256 .f32 0x00000000#32) (ix2 r j)
        = ∑ k : Fin 2048, x0 (ix3 (0 : Fin 1) r k) * x2 (ix2 k j) := by
      refine (matmul_plain_zero_apply (φ₁ := .bf16) (φ₂ := .bf16) dot_S256x2048_S2048x256_S256x256_1_0_0_1_n_n_wf none _ _ r j).trans ?_
      refine Finset.sum_congr rfl fun k _ => ?_
      refine congrArg (· * x2 (ix2 k j)) ?_
      show k0_pay2 (F := Ideal) x0 (ix2 r k) = _
      exact pay2_apply x0 r k
    rw [← hpre]
    rfl
  · refine (broadcastTo_1b_ab_apply _ _ r c).trans ?_
    exact shapeCast_a_1a_apply _ _ 0 c

end Cert.KernelIdeal.Tile

end
-- ==== Proof.TileTap.lean ====
/-
  What a shifted read of the 264-row window holds: rows `5 + w` to `260 + w` of the window are, at row `r`,
  the input `3 - w` steps before step `256 i + r` of the sequence, and zero before the sequence starts.
-/
import proofs.«174678_j51651276701955_2_alg».proof.Proof.TileCoef
import proofs.«174678_j51651276701955_2_alg».proof.Proof.TileFn

noncomputable section

namespace Cert.KernelIdeal.Tile

open Idealize.ShloMosaic Idealize.ShloMosaic.ValueIdx Cert.KernelIdeal Cert.KernelIdeal.Gen

/-- Rows `k` onward of the window, at `(r, d)`: the pad's row `r + k` while that is below 8, the tile's row
    `r + k - 8` from there on. -/
theorem rowsFrom_apply (k : Nat) (hk : k ≤ 8) (pad : FVec Ideal S8x2048 .f32) (cur : FVec Ideal S256x2048 .f32)
    (r : Fin 256) (d : Fin 2048) :
    rowsFrom (F := Ideal) k hk pad cur (ix2 r d)
      = if h : r.val + k < 8 then pad (ix2 (⟨r.val + k, h⟩ : Fin 8) d)
        else cur (ix2 (⟨r.val + k - 8, by have := r.isLt; omega⟩ : Fin 256) d) := rfl

/-- The shifted read `k = 5 + w` of the window is tap `w` of the specification at step `256 i + r`. -/
theorem rowsFrom_tap (X : FVec Ideal S4x4096x2048 .f32) (b : Fin 4) (i : Fin 16)
    (x0 : Vec Ideal S1x256x2048 .f32) (pad : FVec Ideal S8x2048 .f32)
    (hx0 : ∀ (r : Fin 256) (d : Fin 2048), x0 (ix3 (0 : Fin 1) r d)
      = X (ix3 b (⟨256 * i.val + r.val, by have := i.isLt; have := r.isLt; omega⟩ : Fin 4096) d))
    (hpad : ∀ (s : Fin 8) (d : Fin 2048), pad (ix2 s d)
      = if i.val = 0 then 0 else X (ix3 b (⟨256 * i.val + s.val - 8, by have := i.isLt; have := s.isLt; omega⟩ : Fin 4096) d))
    (k : Nat) (hk : k ≤ 8) (w : Fin 4) (hkw : k = 5 + w.val) (r : Fin 256) (d : Fin 2048) :
    rowsFrom (F := Ideal) k hk pad (k0_pay4 x0) (ix2 r d)
      = Cert.DynConv.tap X b (⟨256 * i.val + r.val, by have := i.isLt; have := r.isLt; omega⟩ : Fin 4096) w d := by
  have hi := i.isLt
  have hr := r.isLt
  have hw := w.isLt
  rw [rowsFrom_apply]
  unfold Cert.DynConv.tap
  by_cases h : r.val + k < 8
  · rw [dif_pos h, hpad]
    by_cases h0 : i.val = 0
    · rw [if_pos h0, dif_neg (by show ¬ 3 ≤ 256 * i.val + r.val + w.val; omega)]
    · rw [if_neg h0, dif_pos (by show 3 ≤ 256 * i.val + r.val + w.val; omega)]
      refine congrArg (fun t : Fin 4096 => X (ix3 b t d)) (Fin.ext ?_)
      show 256 * i.val + (r.val + k) - 8 = 256 * i.val + r.val + w.val - 3
      omega
  · rw [dif_neg h, dif_pos (by show 3 ≤ 256 * i.val + r.val + w.val; omega), pay4_apply, hx0]
    refine congrArg (fun t : Fin 4096 => X (ix3 b t d)) (Fin.ext ?_)
    show 256 * i.val + (r.val + k - 8) = 256 * i.val + r.val + w.val - 3
    omega

end Cert.KernelIdeal.Tile

end
-- ==== Proof.TilePay.lean ====
/-
  The body's last payloads read at an index: the four products of a column block of the generated
  coefficients with a shifted read of the window, summed from zero in the order of the taps, then the
  activation `z * logistic z`.
-/
import proofs.«174678_j51651276701955_2_alg».proof.Proof.Spec
import proofs.«174678_j51651276701955_2_alg».proof.Proof.Gen.KernelIdeal.Skeleton
import Idealize.ShloMosaic.PureOps.Ideal.Laws
import Idealize.ShloMosaic.Lib.ValueLayout

noncomputable section

namespace Cert.KernelIdeal.Tile

open Idealize.ShloMosaic Idealize.ShloMosaic.ValueIdx Cert.KernelIdeal Cert.KernelIdeal.Gen

/-- The first tap's product added to zero: column block 0 of the coefficients times the read `v28`. -/
theorem pay7_apply (x0 : Vec Ideal S1x256x2048 .f32) (x2 : Vec Ideal S2048x256 .bf16) (x3 : Vec Ideal S256x8192 .bf16)
    (x4 : Vec Ideal S8192 .f32) (v28 : Vec Ideal S256x2048 .f32) (r : Fin 256) (d : Fin 2048) :
    k0_pay7 (F := Ideal) x0 x2 x3 x4 v28 (ix2 r d)
      = 0 + k0_pay3 (F := Ideal) x0 x2 x3 x4 (ix2 r (⟨0 + d.val, by have := d.isLt; omega⟩ : Fin 8192)) * v28 (ix2 r d) := by
  unfold k0_pay7
  rw [← slice2_axis1_eq 0 (k0_pay3 (F := Ideal) x0 x2 x3 x4) slices_S256x8192_o0_0_S256x2048 r d]
  exact congrArg (· + extractStridedSlice S256x2048 ![0, 0] (k0_pay3 (F := Ideal) x0 x2 x3 x4)
    slices_S256x8192_o0_0_S256x2048 (ix2 r d) * v28 (ix2 r d)) Ideal.ofBits_zero_f32

/-- The second tap's product: column block 1 of the coefficients times the read `v32`. -/
theorem pay8_apply (x0 : Vec Ideal S1x256x2048 .f32) (x2 : Vec Ideal S2048x256 .bf16) (x3 : Vec Ideal S256x8192 .bf16)
    (x4 : Vec Ideal S8192 .f32) (v32 : Vec Ideal S256x2048 .f32) (r : Fin 256) (d : Fin 2048) :
    k0_pay8 (F := Ideal) x0 x2 x3 x4 v32 (ix2 r d)
      = k0_pay3 (F := Ideal) x0 x2 x3 x4 (ix2 r (⟨2048 + d.val, by have := d.isLt; omega⟩ : Fin 8192)) * v32 (ix2 r d) := by
  unfold k0_pay8
  rw [← slice2_axis1_eq 2048 (k0_pay3 (F := Ideal) x0 x2 x3 x4) slices_S256x8192_o0_2048_S256x2048 r d]
  rfl

/-- The stored block: the first two taps' sum, the third and fourth taps' products added in turn, then the
    activation. -/
theorem pay1_apply (v16 : FVec Ideal S256x8192 .f32) (v30 v33 : FVec Ideal S256x2048 .f32) (v36 v40 : Vec Ideal S256x2048 .f32)
    (r : Fin 256) (d : Fin 2048) :
    k0_pay1 (F := Ideal) v16 v30 v33 v36 v40 (ix3 (0 : Fin 1) r d)
      = Cert.DynConv.act (((v30 (ix2 r d) + v33 (ix2 r d))
          + v16 (ix2 r (⟨4096 + d.val, by have := d.isLt; omega⟩ : Fin 8192)) * v36 (ix2 r d))
          + v16 (ix2 r (⟨6144 + d.val, by have := d.isLt; omega⟩ : Fin 8192)) * v40 (ix2 r d)) := by
  unfold k0_pay1
  refine (shapeCast_ab_1ab_apply _ _ (0 : Fin 1) r d).trans ?_
  rw [← slice2_axis1_eq 4096 v16 slices_S256x8192_o0_4096_S256x2048 r d,
    ← slice2_axis1_eq 6144 v16 slices_S256x8192_o0_6144_S256x2048 r d]
  rfl

end Cert.KernelIdeal.Tile

end
-- ==== Proof.TileValue.lean ====
/-
  One tile of the kernel's result, read at an index, is the specification's result at that step: the four
  column blocks of the generated coefficients are its four taps' coefficients, the four shifted reads of the
  window are its four taps, and the products are summed from zero in the order of the taps before the
  activation.
-/
import proofs.«174678_j51651276701955_2_alg».proof.Proof.TileTap
import proofs.«174678_j51651276701955_2_alg».proof.Proof.TilePay

noncomputable section

namespace Cert.KernelIdeal.Tile

open Idealize.ShloMosaic Idealize.ShloMosaic.ValueIdx Cert.KernelIdeal Cert.KernelIdeal.Gen

/-- Column `2048 w + d` of the generated coefficients at row `r` is the specification's coefficient of tap `w`
    and channel `d` at step `256 i + r`. -/
theorem pay3_coef (X : FVec Ideal S4x4096x2048 .f32) (b : Fin 4) (i : Fin 16)
    (x0 : Vec Ideal S1x256x2048 .f32) (x2 : Vec Ideal S2048x256 .bf16) (x3 : Vec Ideal S256x8192 .bf16) (x4 : Vec Ideal S8192 .f32)
    (hx0 : ∀ (r : Fin 256) (d : Fin 2048), x0 (ix3 (0 : Fin 1) r d)
      = X (ix3 b (⟨256 * i.val + r.val, by have := i.isLt; have := r.isLt; omega⟩ : Fin 4096) d))
    (r : Fin 256) (w : Fin 4) (d : Fin 2048) (c : Fin 8192) (hc : c.val = 2048 * w.val + d.val) :
    k0_pay3 (F := Ideal) x0 x2 x3 x4 (ix2 r c)
      = Cert.DynConv.coef X (fun k j => x2 (ix2 k j))
          (fun j w d' => x3 (ix2 j (⟨2048 * w.val + d'.val, by have := w.isLt; have := d'.isLt; omega⟩ : Fin 8192)))
          (fun w d' => x4 (ix1 (⟨2048 * w.val + d'.val, by have := w.isLt; have := d'.isLt; omega⟩ : Fin 8192)))
          b (⟨256 * i.val + r.val, by have := i.isLt; have := r.isLt; omega⟩ : Fin 4096) w d := by
  have hlt : 2048 * w.val + d.val < 8192 := by have := w.isLt; have := d.isLt; omega
  have hcc : c = (⟨2048 * w.val + d.val, hlt⟩ : Fin 8192) := Fin.ext hc
  rw [hcc, pay3_apply]
  unfold Cert.DynConv.coef Cert.DynConv.hid
  refine congrArg₂ (· + ·) (Finset.sum_congr rfl fun j _ => ?_) rfl
  refine congrArg (fun z => Cert.DynConv.act z * x3 (ix2 j (⟨2048 * w.val + d.val, hlt⟩ : Fin 8192))) ?_
  exact Finset.sum_congr rfl fun k _ => congrArg (· * x2 (ix2 k j)) (hx0 r k)

theorem tileOut_apply
    (X : FVec Ideal S4x4096x2048 .f32) (b : Fin 4) (i : Fin 16)
    (x0 : Vec Ideal S1x256x2048 .f32) (x2 : Vec Ideal S2048x256 .bf16) (x3 : Vec Ideal S256x8192 .bf16) (x4 : Vec Ideal S8192 .f32)
    (pad : FVec Ideal S8x2048 .f32)
    (hx0 : ∀ (r : Fin 256) (d : Fin 2048), x0 (ix3 (0 : Fin 1) r d) = X (ix3 b (⟨256 * i.val + r.val, by omega⟩ : Fin 4096) d))
    (hpad : ∀ (s : Fin 8) (d : Fin 2048), pad (ix2 s d) = if i.val = 0 then 0 else X (ix3 b (⟨256 * i.val + s.val - 8, by omega⟩ : Fin 4096) d))
    (r : Fin 256) (d : Fin 2048) :
    tileOut (F := Ideal) x0 x2 x3 x4 pad (ix3 (0 : Fin 1) r d)
      = Cert.DynConv.out X (fun k j => x2 (ix2 k j))
          (fun j w d' => x3 (ix2 j (⟨2048 * w.val + d'.val, by omega⟩ : Fin 8192)))
          (fun w d' => x4 (ix1 (⟨2048 * w.val + d'.val, by omega⟩ : Fin 8192)))
          b (⟨256 * i.val + r.val, by omega⟩ : Fin 4096) d := by
  have hd := d.isLt
  -- the four column blocks of the coefficients
  have c0 := pay3_coef X b i x0 x2 x3 x4 hx0 r 0 d (⟨0 + d.val, by omega⟩ : Fin 8192) (by show 0 + d.val = 2048 * 0 + d.val; omega)
  have c1 := pay3_coef X b i x0 x2 x3 x4 hx0 r 1 d (⟨2048 + d.val, by omega⟩ : Fin 8192) (by show 2048 + d.val = 2048 * 1 + d.val; omega)
  have c2 := pay3_coef X b i x0 x2 x3 x4 hx0 r 2 d (⟨4096 + d.val, by omega⟩ : Fin 8192) (by show 4096 + d.val = 2048 * 2 + d.val; omega)
  have c3 := pay3_coef X b i x0 x2 x3 x4 hx0 r 3 d (⟨6144 + d.val, by omega⟩ : Fin 8192) (by show 6144 + d.val = 2048 * 3 + d.val; omega)
  -- the four shifted reads of the window
  have t0 := rowsFrom_tap X b i x0 pad hx0 hpad 5 (by omega) 0 rfl r d
  have t1 := rowsFrom_tap X b i x0 pad hx0 hpad 6 (by omega) 1 rfl r d
  have t2 := rowsFrom_tap X b i x0 pad hx0 hpad 7 (by omega) 2 rfl r d
  have t3 := rowsFrom_tap X b i x0 pad hx0 hpad 8 (by omega) 3 rfl r d
  unfold tileOut Cert.DynConv.out Cert.DynConv.conv
  rw [pay1_apply, pay7_apply, pay8_apply, c0, c1, c2, c3, t0, t1, t2, t3]

end Cert.KernelIdeal.Tile

end
-- ==== Proof.IdealValue.lean ====
/-
  The result array after the run is the dynamic short convolution of the launched arguments.

  At point `t` the body leaves in the result's staging buffer the tile function of the blocks it was handed. The
  tile's block is rows `256 (t % 16) …` of batch row `t / 16` of the input; the padding is zero at a
  sequence's first tile and the eight rows before the tile otherwise; the weights and the bias are their arrays
  whole, which the region finds as the launched arguments re-laid tap-major (entry `2048 w + d` is the launched
  entry `4 d + w`). So what point `t` writes back is block `(t / 16, t % 16, 0)` of ONE function of the launched
  arguments, the specification's result with the second layer's tables read channel-major; the 64 blocks cover
  the array (index `(b, s, d)` is in the block of point `16 b + s / 256`), so the array ends holding that function.
-/
import proofs.«174678_j51651276701955_2_alg».proof.Proof.IdealBlocks
import proofs.«174678_j51651276701955_2_alg».proof.Proof.IdealPoints
import proofs.«174678_j51651276701955_2_alg».proof.Proof.IdealHostPrefix
import proofs.«174678_j51651276701955_2_alg».proof.Proof.TileValue
import Idealize.ShloMosaic.Lib.Pipeline.Value
import Idealize.ShloMosaic.Lib.ValueIdx
import Idealize.ShloMosaic.Lib.ValueLayout

set_option maxRecDepth 16384

noncomputable section

namespace Cert.KernelIdeal.Conv

open Cert.KernelIdeal Cert.KernelIdeal.Gen Cert.KernelIdeal.Tile
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The two paddings read at an index -/

/-- The padding at a sequence's first tile is zero. -/
theorem pay5_apply (s : Fin 8) (d : Fin 2048) : k0_pay5 (F := Ideal) (ix2 s d) = 0 := by
  unfold k0_pay5
  rw [shapeCast_self]
  exact Ideal.ofBits_zero_f32

/-- The padding at a later tile is the block of the eight rows before it, its unit axis dropped. -/
theorem pay6_apply (x1 : Vec Ideal S1x8x2048 .f32) (s : Fin 8) (d : Fin 2048) :
    k0_pay6 (F := Ideal) x1 (ix2 s d) = x1 (ix3 (0 : Fin 1) s d) := by
  unfold k0_pay6
  rw [shapeCast_self]
  exact shapeCast_1ab_ab_apply x1 _ s d

/-! ## The result as one function of the launched arguments -/

/-- The specification's result of the launched arguments: the input, the first layer's weights, and the second
    layer's weights and bias read channel-major (tap `w` of channel `d` at entry `4 d + w`). -/
abbrev result (c : Dev nD) : S4x4096x2048.Idx → EReal :=
  Cert.DynConv.outArr (m ((c : Thread nD τ).loc main_arg0))
    (fun k j => (m ((c : Thread nD τ).loc main_arg1) : S2048x256.Idx → EReal) (ix2 k j))
    (fun j w d => (m ((c : Thread nD τ).loc main_arg2) : S256x8192.Idx → EReal) (ix2 j (⟨4 * d.val + w.val, by omega⟩ : Fin 8192)))
    (fun w d => (m ((c : Thread nD τ).loc main_arg3) : S8192.Idx → EReal) (ix1 (⟨4 * d.val + w.val, by omega⟩ : Fin 8192)))

/-- The specification's result depends on its four tables only through their values. -/
theorem out_congr {X X' : Cert.DynConv.XIdx → EReal} {A A' : Fin 2048 → Fin 256 → EReal}
    {K K' : Fin 256 → Fin 4 → Fin 2048 → EReal} {C C' : Fin 4 → Fin 2048 → EReal}
    (hX : X = X') (hA : A = A') (hK : K = K') (hC : C = C') (b : Fin 4) (s : Fin 4096) (d : Fin 2048) :
    Cert.DynConv.out X A K C b s d = Cert.DynConv.out X' A' K' C' b s d := by
  subst hX hA hK hC; rfl

/-- What the body leaves at point `t`, read at `(0, r, d)`: the specification's result of the launched arguments at
    batch row `t / 16`, step `256 (t % 16) + r`, channel `d`. -/
theorem outAt_apply (c : Dev nD) (t : Fin cfg0.N) (r : Fin 256) (d : Fin 2048) :
    (outAt m c t : Vec Ideal S1x256x2048 .f32) (ix3 (0 : Fin 1) r d)
      = result m c (ix3 (⟨t.val / 16, by have := t_lt t; omega⟩ : Fin 4)
          (⟨256 * (t.val % 16) + r.val, by have := r.isLt; omega⟩ : Fin 4096) d) := by
  have hA : (fun (k : Fin 2048) (j : Fin 256) => (iblk m c 2 t : Vec Ideal S2048x256 .bf16) (ix2 k j))
      = fun k j => (m ((c : Thread nD τ).loc main_arg1) : S2048x256.Idx → EReal) (ix2 k j) :=
    funext fun k => funext fun j => (iblk2_apply m c t k j).trans (entry_w1 m c k j)
  have hK : (fun (j : Fin 256) (w : Fin 4) (d' : Fin 2048) =>
        (iblk m c 3 t : Vec Ideal S256x8192 .bf16) (ix2 j (⟨2048 * w.val + d'.val, by omega⟩ : Fin 8192)))
      = fun j w d' => (m ((c : Thread nD τ).loc main_arg2) : S256x8192.Idx → EReal) (ix2 j (⟨4 * d'.val + w.val, by omega⟩ : Fin 8192)) :=
    funext fun j => funext fun w => funext fun d' => (iblk3_apply m c t j _).trans (entry_w2 m c j w d')
  have hC : (fun (w : Fin 4) (d' : Fin 2048) =>
        (iblk m c 4 t : Vec Ideal S8192 .f32) (ix1 (⟨2048 * w.val + d'.val, by omega⟩ : Fin 8192)))
      = fun w d' => (m ((c : Thread nD τ).loc main_arg3) : S8192.Idx → EReal) (ix1 (⟨4 * d'.val + w.val, by omega⟩ : Fin 8192)) :=
    funext fun w => funext fun d' => (iblk4_apply m c t _).trans (entry_b2 m c w d')
  show _ = Cert.DynConv.out _ _ _ _ _ _ _
  unfold outAt
  by_cases h : t.val % 16 = 0
  · rw [if_pos h]
    refine (tileOut_apply (V m c main_arg0) (⟨t.val / 16, by have := t_lt t; omega⟩ : Fin 4) (⟨t.val % 16, by omega⟩ : Fin 16)
      (iblk m c 0 t) (iblk m c 2 t) (iblk m c 3 t) (iblk m c 4 t) (k0_pay5 (F := Ideal))
      (fun r' d' => iblk0_apply m c t r' d')
      (fun s d' => (pay5_apply s d').trans (if_pos h).symm) r d).trans ?_
    exact out_congr (V_main_arg0 m c) hA hK hC _ _ _
  · rw [if_neg h]
    refine (tileOut_apply (V m c main_arg0) (⟨t.val / 16, by have := t_lt t; omega⟩ : Fin 4) (⟨t.val % 16, by omega⟩ : Fin 16)
      (iblk m c 0 t) (iblk m c 2 t) (iblk m c 3 t) (iblk m c 4 t) (k0_pay6 (F := Ideal) (iblk m c 1 t))
      (fun r' d' => iblk0_apply m c t r' d')
      (fun s d' => ((pay6_apply (iblk m c 1 t) s d').trans (iblk1_apply m c t h s d')).trans (if_neg h).symm) r d).trans ?_
    exact out_congr (V_main_arg0 m c) hA hK hC _ _ _

/-! ## What a point writes back, and the array after the run -/

/-- Every index of a block of one batch row is `(0, r, d)`. -/
theorem exists_ix3_unit (j : S1x256x2048.Idx) : ∃ (r : Fin 256) (d : Fin 2048), j = ix3 (0 : Fin 1) r d :=
  ⟨j 1, j 2, (eq_ix3 j).trans (congrArg (fun z : Fin 1 => ix3 z (j 1) (j 2)) (Fin.ext (by
    have h : (j 0).val < 1 := (j 0).isLt
    show (j 0).val = 0
    omega)))⟩

/-- Where an element of the result's block at point `t` sits in the array. -/
theorem blk5_emb (t : Fin cfg0.N) (r : Fin 256) (d : Fin 2048) :
    @Eq S4x4096x2048.Idx (((cfg0.win 5).blk t).view.emb (ix3 (0 : Fin 1) r d))
      (ix3 (⟨t.val / 16, by have := t_lt t; omega⟩ : Fin 4) (⟨256 * (t.val % 16) + r.val, by have := r.isLt; omega⟩ : Fin 4096) d) := by
  obtain ⟨-, -, -, -, -, -, -, -, -, -, -, e0, e1, e2⟩ := idx_facts t
  funext a
  apply Fin.ext
  match a with
  | ⟨0, _⟩ => show win0_5.index t (0 : Fin 3) * 1 + 1 * 0 = t.val / 16; rw [e0]; omega
  | ⟨1, _⟩ => show win0_5.index t (1 : Fin 3) * 256 + 1 * r.val = 256 * (t.val % 16) + r.val; rw [e1]; omega
  | ⟨2, _⟩ => show win0_5.index t (2 : Fin 3) * 2048 + 1 * d.val = d.val; rw [e2]; omega

/-- What point `t` writes back is block `t` of `result`. -/
theorem flushed_eq (c : Dev nD) (t : Fin cfg0.N) :
    (dats m 0 c).flushed 5 t = ((cfg0.win 5).blk t).view.read (Elt Ideal) (result m c) := by
  show (cfg0.win 5).cut (grid0.coords t) ((dats m 0 c).after 5 t) = _
  rw [after5]
  refine funext fun (j : S1x256x2048.Idx) => ?_
  obtain ⟨r, d, rfl⟩ := exists_ix3_unit j
  rw [View.read_apply]
  show (outAt m c t : Vec Ideal S1x256x2048 .f32) (ix3 (0 : Fin 1) r d)
    = result m c (((cfg0.win 5).blk t).view.emb (ix3 (0 : Fin 1) r d))
  rw [blk5_emb t r d]
  exact outAt_apply m c t r d

/-- An index of the array is in point `t`'s block iff each coordinate is in the block's range on its axis. -/
theorem mem_blk5 (t : Fin cfg0.N) (i : S4x4096x2048.Idx) :
    i ∈ ((cfg0.win 5).blk t).view.set ↔ ∀ a : Fin 3, win0_5.index t a * S1x256x2048.size a ≤ (i a).val
      ∧ (i a).val < win0_5.index t a * S1x256x2048.size a + S1x256x2048.size a := by
  show i ∈ ((View.whole main_v0).slice (win0_5.rect t)).set ↔ _
  rw [View.set_slice_whole, Rect.mem_set_unit]
  exact Iff.rfl

/-- Index `(b, s, d)` of the array is in the block of any point whose number is `16 b + s / 256`. -/
theorem mem_blk5_of (t : Fin cfg0.N) (i : S4x4096x2048.Idx) (ht : t.val = 16 * (i 0).val + (i 1).val / 256) :
    i ∈ ((cfg0.win 5).blk t).view.set := by
  obtain ⟨-, -, -, -, -, -, -, -, -, -, -, e0, e1, e2⟩ := idx_facts t
  have h0 : (i 0).val < 4 := (i 0).isLt
  have h1 : (i 1).val < 4096 := (i 1).isLt
  have h2 : (i 2).val < 2048 := (i 2).isLt
  rw [mem_blk5]
  intro a
  match a with
  | ⟨0, _⟩ => show win0_5.index t (0 : Fin 3) * 1 ≤ (i 0).val ∧ (i 0).val < win0_5.index t (0 : Fin 3) * 1 + 1; rw [e0]; omega
  | ⟨1, _⟩ => show win0_5.index t (1 : Fin 3) * 256 ≤ (i 1).val ∧ (i 1).val < win0_5.index t (1 : Fin 3) * 256 + 256; rw [e1]; omega
  | ⟨2, _⟩ => show win0_5.index t (2 : Fin 3) * 2048 ≤ (i 2).val ∧ (i 2).val < win0_5.index t (2 : Fin 3) * 2048 + 2048; rw [e2]; omega

/-- The result array after the run is `result`: every point writes its block of it back, and the blocks cover the array. -/
theorem final (c : Dev nD) : (dats m 0 c).arrAt 5 cfg0.N = result m c :=
  (dats m 0 c).arrAt_eq_of_cover 5 (result m c) (fun t _ => flushed_eq m c t) fun (i : S4x4096x2048.Idx) =>
    have h0 : (i 0).val < 4 := (i 0).isLt
    have h1 : (i 1).val < 4096 := (i 1).isLt
    ⟨⟨16 * (i 0).val + (i 1).val / 256, lt_of_lt_of_eq (by omega) N_0.symm⟩, flush0_5 _, mem_blk5_of _ i rfl⟩

end Cert.KernelIdeal.Conv

end
-- ==== Proof.RefIsSpec.lean ====
/-
  The reference program read at an index, stage by stage, is the dynamic short convolution of the specification.

  At the ideal instance every operation is its textbook one, so each stage of the program is an extended-real
  expression of the argument arrays at an index:
  * the first contraction at `(b, t, j)` is `∑ k, x[b,t,k] · A[k,j]`, and the activation after it is
    `z · (1 / (1 + e^(-z)))`, which is `silu z` once the word `0x3F800000` is read as the number one;
  * the second contraction plus the bias, reshaped from `[4, 4096, 8192]` to `[4, 4096, 2048, 4]`, reads at
    `(b, t, d, w)` the flat array at `(b, t, 4 d + w)` (row-major arithmetic): tap `w` of channel `d`;
  * the input padded by three zero steps on the left of the time axis reads at step `s` the input at `s - 3`
    when `3 ≤ s` and zero otherwise, and the window starting at `w` reads it at `s = t + w`;
  * the four products are added to zero in the order of the taps, and the last activation is `silu` again.
-/
import proofs.«174678_j51651276701955_2_alg».proof.Proof.Gen.ReferenceIdeal.Read
import proofs.«174678_j51651276701955_2_alg».proof.Proof.Spec

noncomputable section

namespace Cert.DynConv.Ref

open Idealize.ShloMosaic Idealize.ShloMosaic.ValueIdx Cert.ReferenceIdeal Cert.ReferenceIdeal.Gen Cert.ReferenceIdeal.Read

/-- The word `0x3F800000` is the real number one. -/
theorem one_f32 : Ideal.ofBits .f32 0x3F800000#32 = 1 := by
  simp [Ideal.ofBits, Ideal.ieee, -EReal.coe_mul]; norm_num

/-- `z · (1 / (1 + e^(-z)))`, with the ones spelt as words, is `silu z`. -/
theorem silu_eq (z : EReal) :
    z * Ideal.div (Ideal.ofBits .f32 0x3F800000#32) (Ideal.ofBits .f32 0x3F800000#32 + Ideal.exp (-z)) = act z := by
  rw [one_f32]; rfl

/-- The padded input at `(b, s, d)`: the input three steps earlier, zero on the three leading steps. -/
theorem pad_read (x0 : FVec Ideal S4x4096x2048 .f32) (b : Fin 4) (s : Fin 4099) (d : Fin 2048) :
    val_main_v7 (F := Ideal) x0 (ix3 b s d)
      = if h : 3 ≤ s.val then x0 (ix3 b (⟨s.val - 3, by omega⟩ : Fin 4096) d) else 0 := by
  unfold val_main_v7 pad
  by_cases h : 3 ≤ s.val
  · rw [dif_pos h, dif_pos]
    · refine congrArg x0 (funext fun a => Fin.ext ?_)
      match a with
      | ⟨0, _⟩ => show (b.val - 0) / (0 + 1) = b.val; omega
      | ⟨1, _⟩ => show (s.val - 3) / (0 + 1) = s.val - 3; omega
      | ⟨2, _⟩ => show (d.val - 0) / (0 + 1) = d.val; omega
    · intro a
      match a with
      | ⟨0, _⟩ => exact ⟨Nat.zero_le _, Nat.mod_one _, by show (b.val - 0) / 1 < 4; omega⟩
      | ⟨1, _⟩ => exact ⟨h, Nat.mod_one _, by show (s.val - 3) / 1 < 4096; omega⟩
      | ⟨2, _⟩ => exact ⟨Nat.zero_le _, Nat.mod_one _, by show (d.val - 0) / 1 < 2048; omega⟩
  · rw [dif_neg h, dif_neg]
    · have hz : (0#32 : BitVec 32).toInt = 0 := by decide
      show (((0#32 : BitVec 32).toInt : ℝ) : EReal) = 0
      rw [hz]; simp
    · intro hall
      have hp : (1 : Nat) < 3 := by decide
      have h1 : 3 ≤ s.val := (hall ⟨1, hp⟩).1
      exact h h1

/-- The four argument arrays as the coefficient tables of the specification. -/
abbrev tA (x1 : FVec Ideal S2048x256 .f32) : Fin 2048 → Fin 256 → EReal := fun k j => x1 (ix2 k j)
abbrev tK (x2 : FVec Ideal S256x8192 .f32) : Fin 256 → Fin 4 → Fin 2048 → EReal :=
  fun j w d => x2 (ix2 j (⟨4 * d.val + w.val, by omega⟩ : Fin 8192))
abbrev tC (x3 : FVec Ideal S8192 .f32) : Fin 4 → Fin 2048 → EReal :=
  fun w d => x3 (ix1 (⟨4 * d.val + w.val, by omega⟩ : Fin 8192))

/-- The first contraction at `(b, t, j)` is the hidden unit before its activation. -/
theorem v0_read (x0 : FVec Ideal S4x4096x2048 .f32) (x1 : FVec Ideal S2048x256 .f32)
    (b : Fin 4) (t : Fin 4096) (j : Fin 256) :
    val_main_v0 (F := Ideal) x0 x1 (ix3 b t j) = hid x0 (tA x1) b t j := by
  rw [val_main_v0_apply]
  unfold hid
  refine Finset.sum_congr rfl fun k _ => ?_
  have el : lidx_main_v0 (ix3 b t j) k = ix3 b t k := funext fun a => by
    match a with
    | ⟨0, _⟩ => rfl
    | ⟨1, _⟩ => rfl
    | ⟨2, _⟩ => rfl
  have er : ridx_main_v0 (ix3 b t j) k = ix2 k j := funext fun a => by
    match a with
    | ⟨0, _⟩ => rfl
    | ⟨1, _⟩ => rfl
  rw [el, er]

/-- The activated hidden unit. -/
theorem v1_read (x0 : FVec Ideal S4x4096x2048 .f32) (x1 : FVec Ideal S2048x256 .f32)
    (b : Fin 4) (t : Fin 4096) (j : Fin 256) :
    val_main_v1 (F := Ideal) x0 x1 (ix3 b t j) = act (hid x0 (tA x1) b t j) := by
  rw [← v0_read]
  exact silu_eq _

/-- The reshaped coefficient array at `(b, t, d, w)` is the flat one at `(b, t, 4 d + w)`: tap `w` of channel `d`. -/
theorem v6_read (x0 : FVec Ideal S4x4096x2048 .f32) (x1 : FVec Ideal S2048x256 .f32) (x2 : FVec Ideal S256x8192 .f32)
    (x3 : FVec Ideal S8192 .f32) (b : Fin 4) (t : Fin 4096) (d : Fin 2048) (w : Fin 4) :
    val_main_v6 (F := Ideal) x0 x1 x2 x3 (ix4 b t d w) = coef x0 (tA x1) (tK x2) (tC x3) b t w d := by
  rw [val_main_v6_apply]
  have hb := b.isLt; have ht := t.isLt; have hd := d.isLt; have hw := w.isLt
  have e6 : idx_main_v6 (ix4 b t d w) = ix3 b t (⟨4 * d.val + w.val, by omega⟩ : Fin 8192) :=
    funext fun a => Fin.ext (by
      match a with
      | ⟨0, _⟩ => show (((b.val * 4096 + t.val) * 2048 + d.val) * 4 + w.val) / 33554432 = b.val; omega
      | ⟨1, _⟩ => show (((b.val * 4096 + t.val) * 2048 + d.val) * 4 + w.val) / 8192 % 4096 = t.val; omega
      | ⟨2, _⟩ => show (((b.val * 4096 + t.val) * 2048 + d.val) * 4 + w.val) % 8192 = 4 * d.val + w.val; omega)
  rw [e6, val_main_v5_apply, val_main_v2_apply, val_main_v4_apply, val_main_v3_apply]
  unfold coef
  refine congrArg₂ (· + ·) (Finset.sum_congr rfl fun k _ => ?_) ?_
  · have el : lidx_main_v2 (ix3 b t (⟨4 * d.val + w.val, by omega⟩ : Fin 8192)) k = ix3 b t k := funext fun a => by
      match a with
      | ⟨0, _⟩ => rfl
      | ⟨1, _⟩ => rfl
      | ⟨2, _⟩ => rfl
    have er : ridx_main_v2 (ix3 b t (⟨4 * d.val + w.val, by omega⟩ : Fin 8192)) k
        = ix2 k (⟨4 * d.val + w.val, by omega⟩ : Fin 8192) := funext fun a => by
      match a with
      | ⟨0, _⟩ => rfl
      | ⟨1, _⟩ => rfl
    rw [el, er, v1_read]
  · refine congrArg x3 (funext fun a => ?_)
    match a with
    | ⟨0, _⟩ => rfl

/-- The padded input at step `t + w` is what tap `w` reads at step `t`. -/
theorem tap_read (x0 : FVec Ideal S4x4096x2048 .f32) (b : Fin 4) (t : Fin 4096) (d : Fin 2048) (w : Fin 4)
    (s : Fin 4099) (hs : s.val = t.val + w.val) :
    val_main_v7 (F := Ideal) x0 (ix3 b s d) = tap x0 b t w d := by
  rw [pad_read]
  unfold tap
  by_cases h : 3 ≤ s.val
  · rw [dif_pos h, dif_pos (show 3 ≤ t.val + w.val by omega)]
    refine congrArg x0 (congrArg (fun u => ix3 b u d) (Fin.ext ?_))
    show s.val - 3 = t.val + w.val - 3
    omega
  · rw [dif_neg h, dif_neg (show ¬ 3 ≤ t.val + w.val by omega)]

/-- The four shifted windows of the padded input. -/
theorem v11_read (x0 : FVec Ideal S4x4096x2048 .f32) (b : Fin 4) (t : Fin 4096) (d : Fin 2048) :
    val_main_v11 (F := Ideal) x0 (ix3 b t d) = tap x0 b t 0 d := by
  rw [val_main_v11_apply]
  have e : idx_main_v11 (ix3 b t d) = ix3 b (⟨t.val, by omega⟩ : Fin 4099) d := funext fun a => by
    match a with
    | ⟨0, _⟩ => rfl
    | ⟨1, _⟩ => rfl
    | ⟨2, _⟩ => rfl
  rw [e]
  exact tap_read x0 b t d 0 _ rfl
theorem v16_read (x0 : FVec Ideal S4x4096x2048 .f32) (b : Fin 4) (t : Fin 4096) (d : Fin 2048) :
    val_main_v16 (F := Ideal) x0 (ix3 b t d) = tap x0 b t 1 d := by
  rw [val_main_v16_apply]
  have e : idx_main_v16 (ix3 b t d) = ix3 b (⟨1 + t.val, by omega⟩ : Fin 4099) d := funext fun a => by
    match a with
    | ⟨0, _⟩ => rfl
    | ⟨1, _⟩ => rfl
    | ⟨2, _⟩ => rfl
  rw [e]
  exact tap_read x0 b t d 1 _ (Nat.add_comm 1 t.val)
theorem v21_read (x0 : FVec Ideal S4x4096x2048 .f32) (b : Fin 4) (t : Fin 4096) (d : Fin 2048) :
    val_main_v21 (F := Ideal) x0 (ix3 b t d) = tap x0 b t 2 d := by
  rw [val_main_v21_apply]
  have e : idx_main_v21 (ix3 b t d) = ix3 b (⟨2 + t.val, by omega⟩ : Fin 4099) d := funext fun a => by
    match a with
    | ⟨0, _⟩ => rfl
    | ⟨1, _⟩ => rfl
    | ⟨2, _⟩ => rfl
  rw [e]
  exact tap_read x0 b t d 2 _ (Nat.add_comm 2 t.val)
theorem v26_read (x0 : FVec Ideal S4x4096x2048 .f32) (b : Fin 4) (t : Fin 4096) (d : Fin 2048) :
    val_main_v26 (F := Ideal) x0 (ix3 b t d) = tap x0 b t 3 d := by
  rw [val_main_v26_apply]
  have e : idx_main_v26 (ix3 b t d) = ix3 b (⟨3 + t.val, by omega⟩ : Fin 4099) d := funext fun a => by
    match a with
    | ⟨0, _⟩ => rfl
    | ⟨1, _⟩ => rfl
    | ⟨2, _⟩ => rfl
  rw [e]
  exact tap_read x0 b t d 3 _ (Nat.add_comm 3 t.val)

/-- Dropping the unit axis: `(b, t, d)` of the rank-3 array is `(b, t, d, 0)` of the rank-4 one. -/
theorem drop_unit (b : Fin 4) (t : Fin 4096) (d : Fin 2048) :
    idx_main_v10 (ix3 b t d) = ix4 b t d (0 : Fin 1) := by
  have hb := b.isLt; have ht := t.isLt; have hd := d.isLt
  refine funext fun a => Fin.ext ?_
  match a with
  | ⟨0, _⟩ => show ((b.val * 4096 + t.val) * 2048 + d.val) / 8388608 = b.val; omega
  | ⟨1, _⟩ => show ((b.val * 4096 + t.val) * 2048 + d.val) / 2048 % 4096 = t.val; omega
  | ⟨2, _⟩ => show ((b.val * 4096 + t.val) * 2048 + d.val) / 1 % 2048 = d.val; omega
  | ⟨3, _⟩ => rfl

section Taps
variable (x0 : FVec Ideal S4x4096x2048 .f32) (x1 : FVec Ideal S2048x256 .f32) (x2 : FVec Ideal S256x8192 .f32)
  (x3 : FVec Ideal S8192 .f32) (b : Fin 4) (t : Fin 4096) (d : Fin 2048)

/-- The four coefficient slices. -/
theorem v10_read : val_main_v10 (F := Ideal) x0 x1 x2 x3 (ix3 b t d) = coef x0 (tA x1) (tK x2) (tC x3) b t 0 d := by
  rw [val_main_v10_apply, drop_unit, val_main_v9_apply]
  have e : idx_main_v9 (ix4 b t d (0 : Fin 1)) = ix4 b t d (0 : Fin 4) := funext fun a => by
    match a with
    | ⟨0, _⟩ => rfl
    | ⟨1, _⟩ => rfl
    | ⟨2, _⟩ => rfl
    | ⟨3, _⟩ => rfl
  rw [e, v6_read]
theorem v15_read : val_main_v15 (F := Ideal) x0 x1 x2 x3 (ix3 b t d) = coef x0 (tA x1) (tK x2) (tC x3) b t 1 d := by
  rw [val_main_v15_apply, show idx_main_v15 (ix3 b t d) = ix4 b t d (0 : Fin 1) from drop_unit b t d, val_main_v14_apply]
  have e : idx_main_v14 (ix4 b t d (0 : Fin 1)) = ix4 b t d (1 : Fin 4) := funext fun a => by
    match a with
    | ⟨0, _⟩ => rfl
    | ⟨1, _⟩ => rfl
    | ⟨2, _⟩ => rfl
    | ⟨3, _⟩ => rfl
  rw [e, v6_read]
theorem v20_read : val_main_v20 (F := Ideal) x0 x1 x2 x3 (ix3 b t d) = coef x0 (tA x1) (tK x2) (tC x3) b t 2 d := by
  rw [val_main_v20_apply, show idx_main_v20 (ix3 b t d) = ix4 b t d (0 : Fin 1) from drop_unit b t d, val_main_v19_apply]
  have e : idx_main_v19 (ix4 b t d (0 : Fin 1)) = ix4 b t d (2 : Fin 4) := funext fun a => by
    match a with
    | ⟨0, _⟩ => rfl
    | ⟨1, _⟩ => rfl
    | ⟨2, _⟩ => rfl
    | ⟨3, _⟩ => rfl
  rw [e, v6_read]
theorem v25_read : val_main_v25 (F := Ideal) x0 x1 x2 x3 (ix3 b t d) = coef x0 (tA x1) (tK x2) (tC x3) b t 3 d := by
  rw [val_main_v25_apply, show idx_main_v25 (ix3 b t d) = ix4 b t d (0 : Fin 1) from drop_unit b t d, val_main_v24_apply]
  have e : idx_main_v24 (ix4 b t d (0 : Fin 1)) = ix4 b t d (3 : Fin 4) := funext fun a => by
    match a with
    | ⟨0, _⟩ => rfl
    | ⟨1, _⟩ => rfl
    | ⟨2, _⟩ => rfl
    | ⟨3, _⟩ => rfl
  rw [e, v6_read]

/-- The accumulator starts at zero. -/
theorem v8_read : val_main_v8 (F := Ideal) (ix3 b t d) = 0 := by
  rw [val_main_v8_apply, val_main_cst_apply]
  exact Ideal.ofBits_zero_f32

/-- The four products summed from zero, tap 0 first. -/
theorem v28_read : val_main_v28 (F := Ideal) x0 x1 x2 x3 (ix3 b t d) = conv x0 (tA x1) (tK x2) (tC x3) b t d := by
  rw [val_main_v28_apply, val_main_v23_apply, val_main_v18_apply, val_main_v13_apply,
    val_main_v12_apply, val_main_v17_apply, val_main_v22_apply, val_main_v27_apply,
    v8_read, v10_read, v15_read, v20_read, v25_read, v11_read, v16_read, v21_read, v26_read]
  rfl

/-- The result at `(b, t, d)`. -/
theorem v29_read : val_main_v29 (F := Ideal) x0 x1 x2 x3 (ix3 b t d) = out x0 (tA x1) (tK x2) (tC x3) b t d := by
  unfold out
  rw [← v28_read]
  exact silu_eq _

end Taps

end Cert.DynConv.Ref

open Idealize.ShloMosaic Idealize.ShloMosaic.ValueIdx Cert.ReferenceIdeal in
theorem Cert.DynConv.Ref.ref_is_spec
    (x0 : FVec Ideal S4x4096x2048 .f32) (x1 : FVec Ideal S2048x256 .f32) (x2 : FVec Ideal S256x8192 .f32) (x3 : FVec Ideal S8192 .f32) :
    Cert.ReferenceIdeal.Read.val_main_v29 (F := Ideal) x0 x1 x2 x3
      = Cert.DynConv.outArr x0 (fun k j => x1 (ix2 k j))
          (fun j w d => x2 (ix2 j (⟨4 * d.val + w.val, by omega⟩ : Fin 8192)))
          (fun w d => x3 (ix1 (⟨4 * d.val + w.val, by omega⟩ : Fin 8192))) := by
  funext i
  obtain ⟨b, t, d, rfl⟩ : ∃ (b : Fin 4) (t : Fin 4096) (d : Fin 2048), i = ix3 b t d := ⟨i 0, i 1, i 2, eq_ix3 i⟩
  exact Cert.DynConv.Ref.v29_read x0 x1 x2 x3 b t d

end
-- ==== Proof.lean ====
/-
  A per-token dynamic causal depthwise convolution: the kernel against its plain reference, over the extended reals.

  Both programs compute, for a batch row `b`, a time step `t` and a channel `d`,
  `silu (∑_w coef[b,t,w,d] · x[b, t + w - 3, d])` over the four taps `w`, the input read as zero before the
  sequence starts, where the tap coefficients are generated per step by a two-layer network:
  `coef = silu (x[b,t,:] · w1) · w2 + b2` (`Proof/Spec.lean`). The reference computes this with whole-array
  operations, reading tap `w` of channel `d` at column `4·d + w` of the second layer (`Proof/RefIsSpec.lean`).
  The kernel first re-lays the second layer tap-major (column `2048·w + d`; `Proof/IdealHostPrefix.lean`), then
  runs one pipelined region over 4 × 16 tiles of 256 steps. Each tile's body builds a window of 264 rows — the
  eight rows before the tile (zero at a sequence's first tile, the previous tile's last rows otherwise, fetched
  through a second window on the same array) and the tile — and reads the four taps as shifted loads of it
  (`Proof/TileFn.lean`, `Proof/TileValue.lean`). The result array is therefore the same function of the four
  arguments in both programs (`Proof/IdealValue.lean`), with no law of the extended reals beyond the shape of
  the two expressions: the products and the sums stand in the same order on both sides.

  The frames: the kernel's program terminates without a fault and leaves the four arguments as launched, at the
  word level and at the extended reals alike (`Proof/BitsLaunch.lean`, `Proof/IdealLaunch.lean`, over the run of
  a region whose two input windows share one array, `Proof/LibSharedFrame.lean`); the reference's frame is its
  generated run with the result dropped. The idealization rewrote nothing, so `preserves` is `True`.
-/
import proofs.«174678_j51651276701955_2_alg».proof.Defs
import proofs.«174678_j51651276701955_2_alg».proof.Proof.Gen.Kernel
import proofs.«174678_j51651276701955_2_alg».proof.Proof.Gen.Kernel.Skeleton
import proofs.«174678_j51651276701955_2_alg».proof.Proof.Gen.Kernel.Launch
import proofs.«174678_j51651276701955_2_alg».proof.Proof.Gen.Kernel.Points
import proofs.«174678_j51651276701955_2_alg».proof.Proof.Gen.KernelIdeal
import proofs.«174678_j51651276701955_2_alg».proof.Proof.Gen.KernelIdeal.Skeleton
import proofs.«174678_j51651276701955_2_alg».proof.Proof.Gen.KernelIdeal.Launch
import proofs.«174678_j51651276701955_2_alg».proof.Proof.Gen.KernelIdeal.Points
import proofs.«174678_j51651276701955_2_alg».proof.Proof.Gen.ReferenceIdeal
import proofs.«174678_j51651276701955_2_alg».proof.Proof.Gen.Pre_finite_inputs
import proofs.«174678_j51651276701955_2_alg».proof.Proof.Gen.ReferenceIdeal.Run
import proofs.«174678_j51651276701955_2_alg».proof.Proof.Gen.ReferenceIdeal.Read
import proofs.«174678_j51651276701955_2_alg».proof.Proof.BitsLaunch
import proofs.«174678_j51651276701955_2_alg».proof.Proof.IdealLaunch
import proofs.«174678_j51651276701955_2_alg».proof.Proof.IdealValue
import proofs.«174678_j51651276701955_2_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel (hKernel := Cert.Kernel.Gen.facts) (hPre_finite_inputs := Cert.Pre_finite_inputs.Gen.facts) :=
  fun m ρ _ => Cert.Kernel.Conv.frame m ρ

/-- So does the kernel program read at the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Conv.frame m ρ

/-- The reference's frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The kernel program's run at the extended reals, its result array named: the convolution of the arguments. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v0) = Cert.KernelIdeal.Conv.result m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run (Cert.KernelIdeal.defs (F := Ideal)) _ _).mono
    (fun r h c => ⟨((h c).1 5).trans (Cert.KernelIdeal.Conv.final m c), Cert.KernelIdeal.Conv.args_kept m r h c⟩)
    (Cert.KernelIdeal.Conv.run_main m ρ)

/-- From memories that agree on the arguments the two programs end with the same result array: each is the
    convolution of the arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Conv.result m c, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.DynConv.Ref.ref_is_spec, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
